-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64x16 : Shape := ⟨2, ![64, 16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64x16 : S_.BroadcastsInDim S64x16 (![] : Fin 0 → Fin S64x16.rank)
  reducesTo_S64x16_S_d0_1 : S64x16.ReducesTo [0, 1] S_

variable [Facts]

def fn {F : FTy → Type} [FloatOps F] (main_arg0 : FVec F S100000x128 .f32) (main_arg1 : IVec S2x1600000 32) (main_arg2 : FVec F S128x64 .f32) (main_arg3 : FVec F S64x16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64x16 .f32 := Host.absf main_arg3
  let main_cst_2 : FVec F S_ .f32 := constant S_ .f32 0x7F800000#32
  let main_v10 : FVec F S64x16 .f32 := broadcastInDim S64x16 ![] bcast_S_S64x16 main_cst_2
  let main_v11 : IVec S64x16 1 := cmpf .olt main_v9 main_v10
  let main_c_3 : IVec S_ 1 := constantI S_ 1 1#1
  let main_v12 : IVec S_ 1 := (fun x v => Host.reduce IntOp.andi x v reducesTo_S64x16_S_d0_1 h_S_) main_v11 main_c_3
  let main_v13 : IVec S_ 1 := andi main_v8 main_v12
  main_v13
-- ==== Kernel.lean ====
abbrev S100000x128 : Shape := ⟨2, ![100000, 128]⟩
abbrev S2x1600000 : Shape := ⟨2, ![2, 1600000]⟩
abbrev S128x64 : Shape := ⟨2, ![128, 64]⟩
abbrev S64x16 : Shape := ⟨2, ![64, 16]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x64 : Shape := ⟨2, ![100000, 64]⟩
abbrev S10000x128 : Shape := ⟨2, ![10000, 128]⟩
abbrev S10000x64 : Shape := ⟨2, ![10000, 64]⟩
abbrev S1600000x64 : Shape := ⟨2, ![1600000, 64]⟩
abbrev S100000x16 : Shape := ⟨2, ![100000, 16]⟩
abbrev S10000x16 : Shape := ⟨2, ![10000, 16]⟩
abbrev S1600000x16 : Shape := ⟨2, ![1600000, 16]⟩
abbrev S10000 : Shape := ⟨1, ![10000]⟩
abbrev S10000x1 : Shape := ⟨2, ![10000, 1]⟩

abbrev nBuf : Space → Nat
  | .hbm => 79
  | .vmem => 14
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64x16, .f32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S_, .f32⟩
  | .hbm, ⟨9, _⟩ => ⟨S1600000, .f32⟩
  | .hbm, ⟨10, _⟩ => ⟨S_, .f32⟩
  | .hbm, ⟨11, _⟩ => ⟨S100000, .f32⟩
  | .hbm, ⟨12, _⟩ => ⟨S1600000x1, .i32⟩
  | .hbm, ⟨13, _⟩ => ⟨S100000, .f32⟩
  | .hbm, ⟨14, _⟩ => ⟨S_, .f32⟩
  | .hbm, ⟨15, _⟩ => ⟨S100000, .f32⟩
  | .hbm, ⟨16, _⟩ => ⟨S100000, .i1⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000, .f32⟩
  | .hbm, ⟨43, _⟩ => ⟨S1600000, .f32⟩
  | .hbm, ⟨44, _⟩ => ⟨S100000x64, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x64, .f32⟩
  | .hbm, ⟨54, _⟩ => ⟨S1600000x1, .f32⟩
  | .hbm, ⟨55, _⟩ => ⟨S1600000x64, .f32⟩
  | .hbm, ⟨56, _⟩ => ⟨S1600000x64, .f32⟩
  | .hbm, ⟨57, _⟩ => ⟨S_, .f32⟩
  | .hbm, ⟨58, _⟩ => ⟨S100000x64, .f32⟩
  | .hbm, ⟨59, _⟩ => ⟨S1600000x1, .i32⟩
  | .hbm, ⟨60, _⟩ => ⟨S100000x64, .f32⟩
  | .hbm, ⟨61, _⟩ => ⟨S100000x16, .f32⟩
  | .hbm, ⟨62, _⟩ => ⟨S_, .i32⟩
  | .hbm, ⟨63, _⟩ => ⟨S1600000, .i32⟩
  | .hbm, ⟨64, _⟩ => ⟨S1600000, .i1⟩
  | .hbm, ⟨65, _⟩ => ⟨S_, .i32⟩
  | .hbm, ⟨66, _⟩ => ⟨S1600000, .i32⟩
  | .hbm, ⟨67, _⟩ => ⟨S1600000, .i32⟩
  | .hbm, ⟨68, _⟩ => ⟨S1600000, .i32⟩
  | .hbm, ⟨69, _⟩ => ⟨S1600000x1, .i32⟩
  | .hbm, ⟨70, _⟩ => ⟨S1600000x16, .f32⟩
  | .hbm, ⟨71, _⟩ => ⟨S1600000x1, .f32⟩
  | .hbm, ⟨72, _⟩ => ⟨S1600000x16, .f32⟩
  | .hbm, ⟨73, _⟩ => ⟨S1600000x16, .f32⟩
  | .hbm, ⟨74, _⟩ => ⟨S_, .f32⟩
  | .hbm, ⟨75, _⟩ => ⟨S100000x16, .f32⟩
  | .hbm, ⟨76, _⟩ => ⟨S1600000x1, .i32⟩
  | .hbm, ⟨77, _⟩ => ⟨S100000x16, .f32⟩
  | .hbm, ⟨78, _⟩ => ⟨S100000x16, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S64x16, .f32⟩
  | .local _ .vmem, ⟨8, _⟩ => ⟨S10000x16, .f32⟩
  | .local _ .vmem, ⟨9, _⟩ => ⟨S10000x16, .f32⟩
  | .local _ .vmem, ⟨10, _⟩ => ⟨S10000x16, .f32⟩
  | .local _ .vmem, ⟨11, _⟩ => ⟨S10000x16, .f32⟩
  | .local _ .vmem, ⟨12, _⟩ => ⟨S10000x16, .f32⟩
  | .local _ .vmem, ⟨13, _⟩ => ⟨S10000x16, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_call0_v0 : Ref sig .tc := ⟨.hbm, 22, rfl⟩
abbrev main_call0_v1 : Ref sig .tc := ⟨.hbm, 23, rfl⟩
abbrev main_v13 : Ref sig .tc := ⟨.hbm, 24, rfl⟩
abbrev main_c : Ref sig .tc := ⟨.hbm, 25, rfl⟩
abbrev main_v14 : Ref sig .tc := ⟨.hbm, 26, rfl⟩
abbrev main_v15 : Ref sig .tc := ⟨.hbm, 27, rfl⟩
abbrev main_c_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_5 : Ref sig .tc := ⟨.hbm, 34, rfl⟩
abbrev main_v21 : Ref sig .tc := ⟨.hbm, 35, rfl⟩
abbrev main_v22 : Ref sig .tc := ⟨.hbm, 36, rfl⟩
abbrev main_c_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_7 : Ref sig .tc := ⟨.hbm, 45, rfl⟩
abbrev main_v30 : Ref sig .tc := ⟨.hbm, 46, rfl⟩
abbrev main_v31 : Ref sig .tc := ⟨.hbm, 47, rfl⟩
abbrev main_c_8 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_9 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_c_10 : Ref sig .tc := ⟨.hbm, 62, rfl⟩
abbrev main_v44 : Ref sig .tc := ⟨.hbm, 63, rfl⟩
abbrev main_v45 : Ref sig .tc := ⟨.hbm, 64, rfl⟩
abbrev main_c_11 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_12 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x16 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S10000x64_S10000x64 : S10000x64.ShapeCasts S10000x64
  inb_S64x16_S64x16_0_0 : ∀ a, (![0, 0] : Fin 2 → Nat) a + S64x16.size a ≤ S64x16.size a
  h_S64x16 : 0 < S64x16.numel
  inb_S10000x16_S10000x16_0_0 : ∀ a, (![0, 0] : Fin 2 → Nat) a + S10000x16.size a ≤ S10000x16.size a
  h_S10000x16 : 0 < S10000x16.numel
  bcast_S1600000x1_S1600000x16_0_1 : S1600000x1.BroadcastsInDim S1600000x16 (![0, 1] : Fin 2 → Fin S1600000x16.rank)
  bcast_S_S100000x16 : S_.BroadcastsInDim S100000x16 (![] : Fin 0 → Fin S100000x16.rank)
  shapeCasts_S10000x16_S10000x16 : S10000x16.ShapeCasts S10000x16
  reduces_S10000x16_S10000 : S10000x16.Reduces [1] S10000
  shapeCasts_S10000_S10000x1 : S10000.ShapeCasts S10000x1
  broadcasts_S10000x1_S10000x16 : S10000x1.Broadcasts S10000x16
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S10000x128_S128x64_S10000x64_1_0_0_1_n_n_wf : DotDims.WF S10000x128 S128x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x16_S10000x16_1_0_0_1_n_n_wf : DotDims.WF S10000x64 S64x16 S10000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x16.size a ≤ S64x16.size a
  hwx1_1 : ∀ i : grid1.Coords, EltTy.bits .f32 = 32 ∨ (Rect.block (s := S64x16) S64x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x16.size a ≤ S100000x16.size a
  hwx1_2 : ∀ i : grid1.Coords, EltTy.bits .f32 = 32 ∨ (Rect.block (s := S100000x16) S10000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x16.size a ≤ S100000x16.size a
  hwx2_0 : ∀ i : grid2.Coords, EltTy.bits .f32 = 32 ∨ (Rect.block (s := S100000x16) S10000x16.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x16.size a ≤ S100000x16.size a
  hwx2_1 : ∀ i : grid2.Coords, EltTy.bits .f32 = 32 ∨ (Rect.block (s := S100000x16) S10000x16.size (cc2_transform_1 i) (hinb2_1 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x16_S10000x16_1_0_0_1_n_n : DotDims S10000x64 S64x16 S10000x16 where
  lhsContracting := [1]
  rhsContracting := [0]
  lhsNonContracting := [0]
  rhsNonContracting := [1]
  lhsBatch := []
  rhsBatch := []
  wf := dot_S10000x64_S64x16_S10000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S64x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v43) S10000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v56) S10000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v57) S10000x16.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64x16 : Shape := ⟨2, ![64, 16]⟩
abbrev S1x1600000 : Shape := ⟨2, ![1, 1600000]⟩
abbrev S1600000 : Shape := ⟨1, ![1600000]⟩
abbrev S100000x64 : Shape := ⟨2, ![100000, 64]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x16 : Shape := ⟨2, ![100000, 16]⟩
abbrev S1600000x16 : Shape := ⟨2, ![1600000, 16]⟩
abbrev S100000x1 : Shape := ⟨2, ![100000, 1]⟩

abbrev nBuf : Space → Nat
  | .hbm => 133
  | .vmem => 0
  | .smem => 0
  | _ => 0

abbrev hbmTy0_0 (i : Nat) : BufTy := match i % 128 with
  | 0 => ⟨S100000x128, .f32⟩
  | 1 => ⟨S2x1600000, .i32⟩
  | 2 => ⟨S128x64, .f32⟩
  | 3 => ⟨S64x16, .f32⟩
  | 4 => ⟨S1x1600000, .i32⟩
  | 5 => ⟨S1600000, .i32⟩
  | 6 => ⟨S1x1600000, .i32⟩
  | 7 => ⟨S1600000, .i32⟩
  | 8 => ⟨S100000x64, .f32⟩
  | 9 => ⟨S_, .f32⟩
  | 10 => ⟨S1600000, .f32⟩
  | 11 => ⟨S_, .f32⟩
  | 12 => ⟨S100000, .f32⟩
  | 13 => ⟨S1600000x1, .i32⟩
  | 14 => ⟨S100000, .f32⟩
  | 15 => ⟨S_, .f32⟩
  | 16 => ⟨S100000, .f32⟩
  | 17 => ⟨S100000, .i1⟩
  | 18 => ⟨S_, .f32⟩
  | 19 => ⟨S100000, .f32⟩
  | 20 => ⟨S100000, .f32⟩
  | 21 => ⟨S100000, .f32⟩
  | 22 => ⟨S_, .f32⟩
  | 23 => ⟨S_, .f32⟩
  | 24 => ⟨S100000, .f32⟩
  | 25 => ⟨S100000, .f32⟩
  | 26 => ⟨S_, .i32⟩
  | 27 => ⟨S1600000, .i32⟩
  | 28 => ⟨S1600000, .i1⟩
  | 29 => ⟨S_, .i32⟩
  | 30 => ⟨S1600000, .i32⟩
  | 31 => ⟨S1600000, .i32⟩
  | 32 => ⟨S1600000, .i32⟩
  | 33 => ⟨S1600000x1, .i32⟩
  | 34 => ⟨S1600000, .f32⟩
  | 35 => ⟨S_, .i32⟩
  | 36 => ⟨S1600000, .i32⟩
  | 37 => ⟨S1600000, .i1⟩
  | 38 => ⟨S_, .i32⟩
  | 39 => ⟨S1600000, .i32⟩
  | 40 => ⟨S1600000, .i32⟩
  | 41 => ⟨S1600000, .i32⟩
  | 42 => ⟨S1600000x1, .i32⟩
  | 43 => ⟨S1600000, .f32⟩
  | 44 => ⟨S1600000, .f32⟩
  | 45 => ⟨S_, .i32⟩
  | 46 => ⟨S1600000, .i32⟩
  | 47 => ⟨S1600000, .i1⟩
  | 48 => ⟨S_, .i32⟩
  | 49 => ⟨S1600000, .i32⟩
  | 50 => ⟨S1600000, .i32⟩
  | 51 => ⟨S1600000, .i32⟩
  | 52 => ⟨S1600000x1, .i32⟩
  | 53 => ⟨S1600000x64, .f32⟩
  | 54 => ⟨S1600000x1, .f32⟩
  | 55 => ⟨S1600000x64, .f32⟩
  | 56 => ⟨S1600000x64, .f32⟩
  | 57 => ⟨S_, .f32⟩
  | 58 => ⟨S100000x64, .f32⟩
  | 59 => ⟨S1600000x1, .i32⟩
  | 60 => ⟨S100000x64, .f32⟩
  | 61 => ⟨S1x1600000, .i32⟩
  | 62 => ⟨S1600000, .i32⟩
  | 63 => ⟨S1x1600000, .i32⟩
  | 64 => ⟨S1600000, .i32⟩
  | 65 => ⟨S100000x16, .f32⟩
  | 66 => ⟨S_, .f32⟩
  | 67 => ⟨S1600000, .f32⟩
  | 68 => ⟨S_, .f32⟩
  | 69 => ⟨S100000, .f32⟩
  | 70 => ⟨S1600000x1, .i32⟩
  | 71 => ⟨S100000, .f32⟩
  | 72 => ⟨S_, .f32⟩
  | 73 => ⟨S100000, .f32⟩
  | 74 => ⟨S100000, .i1⟩
  | 75 => ⟨S_, .f32⟩
  | 76 => ⟨S100000, .f32⟩
  | 77 => ⟨S100000, .f32⟩
  | 78 => ⟨S100000, .f32⟩
  | 79 => ⟨S_, .f32⟩
  | 80 => ⟨S_, .f32⟩
  | 81 => ⟨S100000, .f32⟩
  | 82 => ⟨S100000, .f32⟩
  | 83 => ⟨S_, .i32⟩
  | 84 => ⟨S1600000, .i32⟩
  | 85 => ⟨S1600000, .i1⟩
  | 86 => ⟨S_, .i32⟩
  | 87 => ⟨S1600000, .i32⟩
  | 88 => ⟨S1600000, .i32⟩
  | 89 => ⟨S1600000, .i32⟩
  | 90 => ⟨S1600000x1, .i32⟩
  | 91 => ⟨S1600000, .f32⟩
  | 92 => ⟨S_, .i32⟩
  | 93 => ⟨S1600000, .i32⟩
  | 94 => ⟨S1600000, .i1⟩
  | 95 => ⟨S_, .i32⟩
  | 96 => ⟨S1600000, .i32⟩
  | 97 => ⟨S1600000, .i32⟩
  | 98 => ⟨S1600000, .i32⟩
  | 99 => ⟨S1600000x1, .i32⟩
  | 100 => ⟨S1600000, .f32⟩
  | 101 => ⟨S1600000, .f32⟩
  | 102 => ⟨S_, .i32⟩
  | 103 => ⟨S1600000, .i32⟩
  | 104 => ⟨S1600000, .i1⟩
  | 105 => ⟨S_, .i32⟩
  | 106 => ⟨S1600000, .i32⟩
  | 107 => ⟨S1600000, .i32⟩
  | 108 => ⟨S1600000, .i32⟩
  | 109 => ⟨S1600000x1, .i32⟩
  | 110 => ⟨S1600000x16, .f32⟩
  | 111 => ⟨S1600000x1, .f32⟩
  | 112 => ⟨S1600000x16, .f32⟩
  | 113 => ⟨S1600000x16, .f32⟩
  | 114 => ⟨S_, .f32⟩
  | 115 => ⟨S100000x16, .f32⟩
  | 116 => ⟨S1600000x1, .i32⟩
  | 117 => ⟨S100000x16, .f32⟩
  | 118 => ⟨S_, .f32⟩
  | 119 => ⟨S100000, .f32⟩
  | 120 => ⟨S_, .f32⟩
  | 121 => ⟨S100000, .f32⟩
  | 122 => ⟨S100000, .f32⟩
  | 123 => ⟨S100000x1, .f32⟩
  | 124 => ⟨S100000x16, .f32⟩
  | 125 => ⟨S100000x16, .f32⟩
  | 126 => ⟨S100000x16, .f32⟩
  | 127 => ⟨S_, .f32⟩
  | _ => ⟨S100000x128, .f32⟩

abbrev hbmTy0_1 (i : Nat) : BufTy := match i % 128 with
  | 0 => ⟨S100000, .f32⟩
  | 1 => ⟨S100000x1, .f32⟩
  | 2 => ⟨S100000x1, .f32⟩
  | 3 => ⟨S100000x16, .f32⟩
  | 4 => ⟨S100000x16, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_call0_v0 : Ref sig .tc := ⟨.hbm, 23, rfl⟩
abbrev main_call0_v1 : Ref sig .tc := ⟨.hbm, 24, rfl⟩
abbrev main_v14 : Ref sig .tc := ⟨.hbm, 25, rfl⟩
abbrev main_c : Ref sig .tc := ⟨.hbm, 26, rfl⟩
abbrev main_v15 : Ref sig .tc := ⟨.hbm, 27, rfl⟩
abbrev main_v16 : Ref sig .tc := ⟨.hbm, 28, rfl⟩
abbrev main_c_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_5 : Ref sig .tc := ⟨.hbm, 35, rfl⟩
abbrev main_v22 : Ref sig .tc := ⟨.hbm, 36, rfl⟩
abbrev main_v23 : Ref sig .tc := ⟨.hbm, 37, rfl⟩
abbrev main_c_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_7 : Ref sig .tc := ⟨.hbm, 45, rfl⟩
abbrev main_v30 : Ref sig .tc := ⟨.hbm, 46, rfl⟩
abbrev main_v31 : Ref sig .tc := ⟨.hbm, 47, rfl⟩
abbrev main_c_8 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_9 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_10 : Ref sig .tc := ⟨.hbm, 66, rfl⟩
abbrev main_v48 : Ref sig .tc := ⟨.hbm, 67, rfl⟩
abbrev main_cst_11 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_12 : Ref sig .tc := ⟨.hbm, 72, rfl⟩
abbrev main_v52 : Ref sig .tc := ⟨.hbm, 73, rfl⟩
abbrev main_v53 : Ref sig .tc := ⟨.hbm, 74, rfl⟩
abbrev main_cst_13 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_14 : Ref sig .tc := ⟨.hbm, 79, rfl⟩
abbrev main_call1_v0 : Ref sig .tc := ⟨.hbm, 80, rfl⟩
abbrev main_call1_v1 : Ref sig .tc := ⟨.hbm, 81, rfl⟩
abbrev main_v57 : Ref sig .tc := ⟨.hbm, 82, rfl⟩
abbrev main_c_15 : Ref sig .tc := ⟨.hbm, 83, rfl⟩
abbrev main_v58 : Ref sig .tc := ⟨.hbm, 84, rfl⟩
abbrev main_v59 : Ref sig .tc := ⟨.hbm, 85, rfl⟩
abbrev main_c_16 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_c_17 : Ref sig .tc := ⟨.hbm, 92, rfl⟩
abbrev main_v65 : Ref sig .tc := ⟨.hbm, 93, rfl⟩
abbrev main_v66 : Ref sig .tc := ⟨.hbm, 94, rfl⟩
abbrev main_c_18 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_c_19 : Ref sig .tc := ⟨.hbm, 102, rfl⟩
abbrev main_v73 : Ref sig .tc := ⟨.hbm, 103, rfl⟩
abbrev main_v74 : Ref sig .tc := ⟨.hbm, 104, rfl⟩
abbrev main_c_20 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_cst_21 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_call2_cst : Ref sig .tc := ⟨.hbm, 118, rfl⟩
abbrev main_call2_v0 : Ref sig .tc := ⟨.hbm, 119, rfl⟩
abbrev main_call2_cst_0 : Ref sig .tc := ⟨.hbm, 120, rfl⟩
abbrev main_call2_v1 : Ref sig .tc := ⟨.hbm, 121, rfl⟩
abbrev main_call2_v2 : Ref sig .tc := ⟨.hbm, 122, rfl⟩
abbrev main_call2_v3 : Ref sig .tc := ⟨.hbm, 123, rfl⟩
abbrev main_call2_v4 : Ref sig .tc := ⟨.hbm, 124, rfl⟩
abbrev main_call2_v5 : Ref sig .tc := ⟨.hbm, 125, rfl⟩
abbrev main_call2_v6 : Ref sig .tc := ⟨.hbm, 126, rfl⟩
abbrev main_call2_cst_1 : Ref sig .tc := ⟨.hbm, 127, rfl⟩
abbrev main_call2_v7 : Ref sig .tc := ⟨.hbm, 128, rfl⟩
abbrev main_call2_v8 : Ref sig .tc := ⟨.hbm, 129, rfl⟩
abbrev main_call2_v9 : Ref sig .tc := ⟨.hbm, 130, rfl⟩
abbrev main_call2_v10 : Ref sig .tc := ⟨.hbm, 131, rfl⟩
abbrev main_v86 : Ref sig .tc := ⟨.hbm, 132, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S1600000x1_S1600000x16_0_1 : S1600000x1.BroadcastsInDim S1600000x16 (![0, 1] : Fin 2 → Fin S1600000x16.rank)
  bcast_S_S100000x16 : S_.BroadcastsInDim S100000x16 (![] : Fin 0 → Fin S100000x16.rank)
  reducesTo_S100000x16_S100000_d1 : S100000x16.ReducesTo [1] S100000
  h_S_ : 0 < S_.numel
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  dot_S100000x128_S128x64_S100000x64_1_0_0_1_n_n_wf : DotDims.WF S100000x128 S128x64 S100000x64 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x16_S100000x16_1_0_0_1_n_n_wf : DotDims.WF S100000x64 S64x16 S100000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf

class Facts : Prop extends Facts₀ where

variable [Facts]
-- ==== Proof.KernelRun.lean ====
/-
  The idealized kernel's run with its result named.  The program is three kernel launches among four stretches of
  host operations; every weakly fair execution ends, and the result buffer then holds what the fold of the segments
  leaves in it (the contents after the last launch), the four argument arrays being as they were at the start.
-/
import proofs.«143458_j35210141892662_1_alg».proof.Proof.Gen.KernelIdeal.Frame

set_option maxRecDepth 16384

noncomputable section

namespace Cert.KernelIdeal.RunV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program ends with the result buffer at the contents the last launch leaves
    and the arguments unchanged. -/
theorem run_result : θ_run defs (onTc (τ := τ) (main (F := F))) ⟨m, fun _ => 0, ρ⟩ (fun r => ∀ c : Dev nD,
      r.2.mem ((c.tc : Thread nD τ).loc main_v57) = W8 m ρ c (Proc.devRef .tc main_v57)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v57 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c)⟩)

end Cert.KernelIdeal.RunV

end
-- ==== Proof.LibMatmulSum.lean ====
/-
  A plain matrix product  [n, K] x [K, w] -> [n, w]  at the ideal values, for any contraction length K and whichever
  record of dimension numbers spells it: the sum over the record's own contraction index, read at entry (p, q), is the
  sum over k < K of left(p, k) * right(k, q).  A kernel's matrix-unit product into a zero accumulator is that sum.
  The record enters only through six facts about its index maps (one contracted axis of extent K; the left operand
  contracted on its axis 1, the right on its axis 0; the result's axes the left's axis 0 and the right's axis 1).
-/
import Idealize.ShloMosaic.PureOps.Ideal.Laws
import Idealize.ShloMosaic.Lib.Pipeline.Value
import Idealize.ShloMosaic.Lib.ValueIdx

noncomputable section

namespace Cert.LibMatmulSum

open Idealize.ShloMosaic Idealize.ShloMosaic.ValueIdx

/-- The index facts of a plain product with contraction length `K`. -/
structure Plain {n K w : ℕ} (d : DotDims ⟨2, ![n, K]⟩ ⟨2, ![K, w]⟩ ⟨2, ![n, w]⟩) : Prop where
  rank : d.contr.rank = 1
  size : d.contr.size ⟨0, by rw [rank]; exact Nat.one_pos⟩ = K
  l0 : ∀ (i : (⟨2, ![n, w]⟩ : Shape).Idx) (q : d.contr.Idx), (d.lhsIdx i q 0).val = (i 0).val
  l1 : ∀ (i : (⟨2, ![n, w]⟩ : Shape).Idx) (q : d.contr.Idx), (d.lhsIdx i q 1).val = (q ⟨0, by rw [rank]; exact Nat.one_pos⟩).val
  r0 : ∀ (i : (⟨2, ![n, w]⟩ : Shape).Idx) (q : d.contr.Idx), (d.rhsIdx i q 0).val = (q ⟨0, by rw [rank]; exact Nat.one_pos⟩).val
  r1 : ∀ (i : (⟨2, ![n, w]⟩ : Shape).Idx) (q : d.contr.Idx), (d.rhsIdx i q 1).val = (i 1).val

/-- The contraction sum at entry (p, q), re-indexed by k < K. -/
theorem sum_eq {n K w : ℕ} {d : DotDims ⟨2, ![n, K]⟩ ⟨2, ![K, w]⟩ ⟨2, ![n, w]⟩} (hd : Plain d)
    (l : (⟨2, ![n, K]⟩ : Shape).Idx → EReal) (r : (⟨2, ![K, w]⟩ : Shape).Idx → EReal) (p : Fin n) (q : Fin w) :
    (∑ k : d.contr.Idx, l (d.lhsIdx (ix2 p q) k) * r (d.rhsIdx (ix2 p q) k)) = ∑ k : Fin K, l (ix2 p k) * r (ix2 k q) := by
  rw [← Equiv.sum_comp (contrEquiv1 d K hd.rank hd.size).symm]
  refine Finset.sum_congr rfl fun k _ => ?_
  have hk := contrEquiv1_symm_val d K hd.rank hd.size k
  have el : d.lhsIdx (ix2 p q) ((contrEquiv1 d K hd.rank hd.size).symm k) = ix2 p k := funext fun a => Fin.ext (by
    match a with
    | ⟨0, _⟩ => exact hd.l0 _ _
    | ⟨1, _⟩ => exact (hd.l1 _ _).trans hk)
  have er : d.rhsIdx (ix2 p q) ((contrEquiv1 d K hd.rank hd.size).symm k) = ix2 k q := funext fun a => Fin.ext (by
    match a with
    | ⟨0, _⟩ => exact (hd.r0 _ _).trans hk
    | ⟨1, _⟩ => exact hd.r1 _ _)
  rw [el, er]

/-- A matrix-unit product into the zero accumulator, at entry (p, q). -/
theorem matmul_zero_at {n K w : ℕ} {d : DotDims ⟨2, ![n, K]⟩ ⟨2, ![K, w]⟩ ⟨2, ![n, w]⟩} (hd : Plain d) {φ₁ φ₂ : FTy}
    (prec : Option ContractPrecision) (l : FVec Ideal ⟨2, ![n, K]⟩ φ₁) (r : FVec Ideal ⟨2, ![K, w]⟩ φ₂) (p : Fin n) (q : Fin w) :
    FloatOps.matmul d prec l r (constant ⟨2, ![n, w]⟩ .f32 0x00000000#32) (ix2 p q) = ∑ k : Fin K, l (ix2 p k) * r (ix2 k q) :=
  (Ideal.matmul_constant_zero_apply d prec l r (ix2 p q)).trans (sum_eq hd l r p q)

end Cert.LibMatmulSum

end
-- ==== Proof.LibPlainLists.lean ====
/-
  A record of dimension numbers whose six lists are those of the plain product  [n, K] x [K, w] -> [n, w]  (left
  contracted on axis 1, right on axis 0, the result's axes the left's axis 0 then the right's axis 1, no batch axes)
  has the six index facts of a plain product: one contracted axis of extent K, and the operands read at
  (p, k) and (k, q) for the result's entry (p, q) and contraction position k.
-/
import proofs.«143458_j35210141892662_1_alg».proof.Proof.LibMatmulSum

noncomputable section

namespace Cert.LibMatmulSum

open Idealize.ShloMosaic

theorem Plain.of_lists {n K w : ℕ} (d : DotDims ⟨2, ![n, K]⟩ ⟨2, ![K, w]⟩ ⟨2, ![n, w]⟩)
    (hlc : d.lhsContracting = [1]) (hrc : d.rhsContracting = [0]) (hln : d.lhsNonContracting = [0])
    (hrn : d.rhsNonContracting = [1]) (hlb : d.lhsBatch = []) (hrb : d.rhsBatch = []) : Plain d := by
  have hrank : d.contr.rank = 1 := by rw [d.rank_contr, hlc]; rfl
  have keyI : ∀ (i : (⟨2, ![n, w]⟩ : Shape).Idx) (p q : Nat) (hp : p < 2) (hq : q < 2), p = q → (i ⟨p, hp⟩).val = (i ⟨q, hq⟩).val :=
    fun i p q hp hq h => by subst h; rfl
  have keyK : ∀ (k : d.contr.Idx) (p q : Nat) (hp : p < d.contr.rank) (hq : q < d.contr.rank), p = q → (k ⟨p, hp⟩).val = (k ⟨q, hq⟩).val :=
    fun k p q hp hq h => by subst h; rfl
  refine ⟨hrank, ?_, ?_, ?_, ?_, ?_⟩
  · have h0 : 0 < d.lhsContracting.length := by rw [hlc]; exact Nat.one_pos
    have e : d.lhsContracting[0] = (1 : Fin 2) := by simp [hlc]
    exact (d.size_contr 0 h0).trans (by rw [e]; rfl)
  · intro i q
    unfold DotDims.lhsIdx
    rw [dif_neg (by rw [hlb]; exact List.not_mem_nil), dif_pos (by rw [hln]; exact List.mem_singleton.mpr rfl)]
    simp only [Fin.val_cast]
    exact keyI i _ _ _ _ (by simp [hlb, hln])
  · intro i q
    unfold DotDims.lhsIdx
    rw [dif_neg (by rw [hlb]; exact List.not_mem_nil), dif_neg (by rw [hln]; exact fun h => absurd (show (1 : ℕ) = 0 from congrArg Fin.val (List.mem_singleton.mp h)) Nat.one_ne_zero)]
    simp only [Fin.val_cast]
    exact keyK q _ _ _ _ (by simp [hlc])
  · intro i q
    unfold DotDims.rhsIdx
    rw [dif_neg (by rw [hrb]; exact List.not_mem_nil), dif_neg (by rw [hrn]; exact fun h => absurd (show (0 : ℕ) = 1 from congrArg Fin.val (List.mem_singleton.mp h)) Nat.zero_ne_one)]
    simp only [Fin.val_cast]
    exact keyK q _ _ _ _ (by simp [hrc])
  · intro i q
    unfold DotDims.rhsIdx
    rw [dif_neg (by rw [hrb]; exact List.not_mem_nil), dif_pos (by rw [hrn]; exact List.mem_singleton.mpr rfl)]
    simp only [Fin.val_cast]
    exact keyI i _ _ _ _ (by simp [hlb, hln, hrn])

end Cert.LibMatmulSum

end
-- ==== Proof.Spec.lean ====
/-
  The two whole-array functions the program's three launches compute, entry by entry, over the extended reals.
  `mm x y` is the matrix product: entry (p, q) is the sum over k of x(p, k) * y(k, q).  `logSoftmax a` acts on each row of
  width 16: with M the row's greatest entry (the fold of max from the word for minus infinity), entry (p, q) is
  (a(p, q) - M) - log (sum over k of exp (a(p, k) - M)).
-/
import Idealize.ShloMosaic.PureOps.Ideal.Laws
import Idealize.ShloMosaic.Lib.ValueIdx

noncomputable section

namespace Cert.Spec

open Idealize.ShloMosaic Idealize.ShloMosaic.ValueIdx

/-- The matrix product of an n x K and a K x w array. -/
def mm {n K w : ℕ} (x : (⟨2, ![n, K]⟩ : Shape).Idx → EReal) (y : (⟨2, ![K, w]⟩ : Shape).Idx → EReal) :
    (⟨2, ![n, w]⟩ : Shape).Idx → EReal :=
  fun i => ∑ k : Fin K, x (ix2 (n0 := n) (i 0) k) * y (ix2 (n1 := w) k (i 1))

theorem mm_apply {n K w : ℕ} (x : (⟨2, ![n, K]⟩ : Shape).Idx → EReal) (y : (⟨2, ![K, w]⟩ : Shape).Idx → EReal)
    (p : Fin n) (q : Fin w) : mm x y (ix2 p q) = ∑ k : Fin K, x (ix2 p k) * y (ix2 k q) := rfl

/-- The word for minus infinity, read at the ideal values. -/
abbrev negInf : EReal := Ideal.ofBits .f32 0xFF800000#32

/-- A row's greatest entry, folded from minus infinity. -/
def rowMax {n : ℕ} (a : (⟨2, ![n, 16]⟩ : Shape).Idx → EReal) (p : Fin n) : EReal :=
  (Finset.univ : Finset (Fin 16)).fold max negInf (fun k => a (ix2 p k))

/-- The sum over a row of the exponentials of its entries less a number. -/
def rowSumExp {n : ℕ} (a : (⟨2, ![n, 16]⟩ : Shape).Idx → EReal) (p : Fin n) (M : EReal) : EReal :=
  ∑ k : Fin 16, Ideal.exp (a (ix2 p k) - M)

/-- The logarithm of the softmax along rows of width 16. -/
def logSoftmax {n : ℕ} (a : (⟨2, ![n, 16]⟩ : Shape).Idx → EReal) : (⟨2, ![n, 16]⟩ : Shape).Idx → EReal :=
  fun i => (a i - rowMax a (i 0)) - Ideal.log (rowSumExp a (i 0) (rowMax a (i 0)))

theorem logSoftmax_apply {n : ℕ} (a : (⟨2, ![n, 16]⟩ : Shape).Idx → EReal) (p : Fin n) (q : Fin 16) :
    logSoftmax a (ix2 p q) = (a (ix2 p q) - rowMax a p) - Ideal.log (rowSumExp a p (rowMax a p)) := rfl

/-- Taking the maximum with minus infinity once more changes nothing: the fold already starts there. -/
theorem max_negInf_rowMax {n : ℕ} (a : (⟨2, ![n, 16]⟩ : Shape).Idx → EReal) (p : Fin n) :
    max negInf (rowMax a p) = rowMax a p :=
  max_eq_right ((Finset.le_fold_max _).mpr (Or.inl le_rfl))

/-- The function reads one row at a time: if row p of `a` is row `i 0` of `b`, and `a` at (p, q) is `b` at `i`, the two
    values agree. -/
theorem logSoftmax_row_congr {n n' : ℕ} (a : (⟨2, ![n, 16]⟩ : Shape).Idx → EReal) (b : (⟨2, ![n', 16]⟩ : Shape).Idx → EReal)
    (p : Fin n) (q : Fin 16) (i : (⟨2, ![n', 16]⟩ : Shape).Idx)
    (h : ∀ k : Fin 16, a (ix2 p k) = b (ix2 (n0 := n') (i 0) k)) (hq : a (ix2 p q) = b i) :
    logSoftmax a (ix2 p q) = logSoftmax b i := by
  have hM : rowMax a p = rowMax b (i 0) := by
    unfold rowMax
    exact congrArg (fun f => Finset.fold max negInf f (Finset.univ : Finset (Fin 16))) (funext h)
  have hS : ∀ M : EReal, rowSumExp a p M = rowSumExp b (i 0) M := fun M => by
    unfold rowSumExp
    exact Finset.sum_congr rfl fun k _ => by rw [h k]
  show (a (ix2 p q) - rowMax a p) - Ideal.log (rowSumExp a p (rowMax a p))
    = (b i - rowMax b (i 0)) - Ideal.log (rowSumExp b (i 0) (rowMax b (i 0)))
  rw [hq, hM, hS (rowMax b (i 0))]

end Cert.Spec

end
-- ==== Proof.Region0.lean ====
/-
  Launch 0 is a matrix product tiled over ten blocks of 10000 rows.  At grid point t the body multiplies rows
  [10000 t, 10000 t + 10000) of the left array by the whole right array (the change of float format on the way in is the
  identity at the ideal values, and the product is accumulated into zeros), and writes the result to the same rows of
  the output.  The ten row blocks cover the output, so after the launch it holds the whole product.
-/
import proofs.«143458_j35210141892662_1_alg».proof.Proof.Gen.KernelIdeal.Frame
import proofs.«143458_j35210141892662_1_alg».proof.Proof.LibPlainLists
import proofs.«143458_j35210141892662_1_alg».proof.Proof.Spec
import Idealize.ShloMosaic.Lib.Pipeline.Value
import Idealize.ShloMosaic.Lib.ValueIdx

set_option maxRecDepth 16384

noncomputable section

namespace Cert.KernelIdeal.Region0

open Cert.KernelIdeal Cert.KernelIdeal.Gen Cert.Spec Cert.LibMatmulSum
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's value at entry (p, q) of its block: the sum over k of the left block at (p, k) times the right at (k, q). -/
theorem pay_at (x0 : Vec Ideal S10000x128 .f32) (x1 : Vec Ideal S128x64 .f32) (p : Fin 10000) (q : Fin 64) :
    k0_pay1 (F := Ideal) x0 x1 (ix2 p q) = ∑ k : Fin 128, x0 (ix2 p k) * x1 (ix2 k q) := by
  unfold k0_pay1
  exact matmul_zero_at (Plain.of_lists _ rfl rfl rfl rfl rfl rfl) none _ _ p q

/-- Where the blocks sit: the left and the output blocks at point t start at the same row block, in column block 0; the
    right operand is one block. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0 :=
  (by decide +kernel : ∀ t : Fin grid0.N, _)

/-- Every row block of the output is some point's. -/
theorem idx_onto : ∀ q0 : Fin 10, ∃ t : Fin cfg0.N, win0_2.index t = ![q0.val, 0] :=
  (by decide +kernel : ∀ q0 : Fin 10, ∃ t : Fin grid0.N, win0_2.index t = ![q0.val, 0])

/-- What point t writes back is block t of the whole product of the arrays as the launch finds them. -/
theorem flushed_eq (c : Dev nD) (t : Fin cfg0.N) :
    (dat0 (F := Ideal) V c).flushed 2 t
      = ((cfg0.win 2).blk t).view.read (Elt Ideal) (mm (n := 100000) (K := 128) (w := 64) (V c main_arg0) (V c main_arg2)) := by
  show (cfg0.win 2).cut (grid0.coords t) ((dat0 (F := Ideal) V c).after 2 t) = _
  rw [after0_2]
  unfold out0_2
  rw [View.canon_unit_zero hz]
  simp only [View.ld_unit_zero (S := S10000x128) hz, View.ld_unit_zero (S := S128x64) hz]
  obtain ⟨e0, e1, e2, e3, e4⟩ := idx_facts t
  funext j
  obtain ⟨p, q, rfl⟩ : ∃ (p : Fin 10000) (q : Fin 64), j = ix2 p q := ⟨j 0, j 1, eq_ix2 j⟩
  show k0_pay1 (F := Ideal) (iblk0 V c 0 t) (iblk0 V c 1 t) (ix2 p q)
    = mm (n := 100000) (K := 128) (w := 64) (V c main_arg0) (V c main_arg2) (((cfg0.win 2).blk t).view.emb (ix2 p q))
  refine (pay_at (iblk0 V c 0 t) (iblk0 V c 1 t) p q).trans ?_
  unfold mm
  refine Finset.sum_congr rfl fun k _ => ?_
  have hl : iblk0 V c 0 t (ix2 p k) = V c main_arg0 (ix2 ((((cfg0.win 2).blk t).view.emb (ix2 p q)) 0) k) := by
    show V c main_arg0 (((cfg0.win 0).blk t).view.emb (ix2 p k)) = _
    refine congrArg (V c main_arg0) ?_
    funext a; apply Fin.ext
    match a with
    | ⟨0, _⟩ => show win0_0.index t (0 : Fin 2) * 10000 + 1 * p.val = win0_2.index t (0 : Fin 2) * 10000 + 1 * p.val; omega
    | ⟨1, _⟩ => show win0_0.index t (1 : Fin 2) * 128 + 1 * k.val = k.val; omega
  have hr : iblk0 V c 1 t (ix2 k q) = V c main_arg2 (ix2 k ((((cfg0.win 2).blk t).view.emb (ix2 p q)) 1)) := by
    show V c main_arg2 (((cfg0.win 1).blk t).view.emb (ix2 k q)) = _
    refine congrArg (V c main_arg2) ?_
    funext a; apply Fin.ext
    match a with
    | ⟨0, _⟩ => show win0_1.index t (0 : Fin 2) * 128 + 1 * k.val = k.val; omega
    | ⟨1, _⟩ => show win0_1.index t (1 : Fin 2) * 64 + 1 * q.val = win0_2.index t (1 : Fin 2) * 64 + 1 * q.val; omega
  rw [hl, hr]

/-- An index of the output is in point t's block iff each coordinate is in the block's range on its axis. -/
theorem mem_blk (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v29).slice (win0_2.rect t)).set ↔ _
  rw [View.set_slice_whole, Rect.mem_set_unit]
  exact Iff.rfl

/-- The ten row blocks cover the output: row r lies in block r / 10000. -/
theorem cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := idx_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- After the launch the output array holds the product of the two input arrays as the launch found them. -/
theorem final (c : Dev nD) :
    (dat0 (F := Ideal) V c).arrAt 2 cfg0.N = mm (n := 100000) (K := 128) (w := 64) (V c main_arg0) (V c main_arg2) :=
  (dat0 (F := Ideal) V c).arrAt_eq_of_cover 2 _ (fun t _ => flushed_eq V c t) cover

end Cert.KernelIdeal.Region0

end
-- ==== Proof.Region1.lean ====
/-
  Launch 1 is a matrix product tiled over ten blocks of 10000 rows.  At grid point t the body multiplies rows
  [10000 t, 10000 t + 10000) of the left array by the whole right array (the change of float format on the way in is the
  identity at the ideal values, and the product is accumulated into zeros), and writes the result to the same rows of
  the output.  The ten row blocks cover the output, so after the launch it holds the whole product.
-/
import proofs.«143458_j35210141892662_1_alg».proof.Proof.Gen.KernelIdeal.Frame
import proofs.«143458_j35210141892662_1_alg».proof.Proof.LibPlainLists
import proofs.«143458_j35210141892662_1_alg».proof.Proof.Spec
import Idealize.ShloMosaic.Lib.Pipeline.Value
import Idealize.ShloMosaic.Lib.ValueIdx

set_option maxRecDepth 16384

noncomputable section

namespace Cert.KernelIdeal.Region1

open Cert.KernelIdeal Cert.KernelIdeal.Gen Cert.Spec Cert.LibMatmulSum
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's value at entry (p, q) of its block: the sum over k of the left block at (p, k) times the right at (k, q). -/
theorem pay_at (x0 : Vec Ideal S10000x64 .f32) (x1 : Vec Ideal S64x16 .f32) (p : Fin 10000) (q : Fin 16) :
    k1_pay1 (F := Ideal) x0 x1 (ix2 p q) = ∑ k : Fin 64, x0 (ix2 p k) * x1 (ix2 k q) := by
  unfold k1_pay1
  rw [shapeCast_self]
  exact matmul_zero_at (Plain.of_lists _ rfl rfl rfl rfl rfl rfl) none _ _ p q

/-- Where the blocks sit: the left and the output blocks at point t start at the same row block, in column block 0; the
    right operand is one block. -/
theorem idx_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0 :=
  (by decide +kernel : ∀ t : Fin grid1.N, _)

/-- Every row block of the output is some point's. -/
theorem idx_onto : ∀ q0 : Fin 10, ∃ t : Fin cfg1.N, win1_2.index t = ![q0.val, 0] :=
  (by decide +kernel : ∀ q0 : Fin 10, ∃ t : Fin grid1.N, win1_2.index t = ![q0.val, 0])

/-- What point t writes back is block t of the whole product of the arrays as the launch finds them. -/
theorem flushed_eq (c : Dev nD) (t : Fin cfg1.N) :
    (dat1 (F := Ideal) V c).flushed 2 t
      = ((cfg1.win 2).blk t).view.read (Elt Ideal) (mm (n := 100000) (K := 64) (w := 16) (V c main_v42) (V c main_arg3)) := by
  show (cfg1.win 2).cut (grid1.coords t) ((dat1 (F := Ideal) V c).after 2 t) = _
  rw [after1_2]
  unfold out1_2
  rw [View.canon_unit_zero hz]
  simp only [View.ld_unit_zero (S := S10000x64) hz, View.ld_unit_zero (S := S64x16) hz]
  obtain ⟨e0, e1, e2, e3, e4⟩ := idx_facts t
  funext j
  obtain ⟨p, q, rfl⟩ : ∃ (p : Fin 10000) (q : Fin 16), j = ix2 p q := ⟨j 0, j 1, eq_ix2 j⟩
  show k1_pay1 (F := Ideal) (iblk1 V c 0 t) (iblk1 V c 1 t) (ix2 p q)
    = mm (n := 100000) (K := 64) (w := 16) (V c main_v42) (V c main_arg3) (((cfg1.win 2).blk t).view.emb (ix2 p q))
  refine (pay_at (iblk1 V c 0 t) (iblk1 V c 1 t) p q).trans ?_
  unfold mm
  refine Finset.sum_congr rfl fun k _ => ?_
  have hl : iblk1 V c 0 t (ix2 p k) = V c main_v42 (ix2 ((((cfg1.win 2).blk t).view.emb (ix2 p q)) 0) k) := by
    show V c main_v42 (((cfg1.win 0).blk t).view.emb (ix2 p k)) = _
    refine congrArg (V c main_v42) ?_
    funext a; apply Fin.ext
    match a with
    | ⟨0, _⟩ => show win1_0.index t (0 : Fin 2) * 10000 + 1 * p.val = win1_2.index t (0 : Fin 2) * 10000 + 1 * p.val; omega
    | ⟨1, _⟩ => show win1_0.index t (1 : Fin 2) * 64 + 1 * k.val = k.val; omega
  have hr : iblk1 V c 1 t (ix2 k q) = V c main_arg3 (ix2 k ((((cfg1.win 2).blk t).view.emb (ix2 p q)) 1)) := by
    show V c main_arg3 (((cfg1.win 1).blk t).view.emb (ix2 k q)) = _
    refine congrArg (V c main_arg3) ?_
    funext a; apply Fin.ext
    match a with
    | ⟨0, _⟩ => show win1_1.index t (0 : Fin 2) * 64 + 1 * k.val = k.val; omega
    | ⟨1, _⟩ => show win1_1.index t (1 : Fin 2) * 16 + 1 * q.val = win1_2.index t (1 : Fin 2) * 16 + 1 * q.val; omega
  rw [hl, hr]

/-- An index of the output is in point t's block iff each coordinate is in the block's range on its axis. -/
theorem mem_blk (t : Fin cfg1.N) (i : S100000x16.Idx) :
    i ∈ ((cfg1.win 2).blk t).view.set ↔ ∀ a : Fin 2, win1_2.index t a * S10000x16.size a ≤ (i a).val ∧ (i a).val < win1_2.index t a * S10000x16.size a + S10000x16.size a := by
  show i ∈ ((View.whole main_v43).slice (win1_2.rect t)).set ↔ _
  rw [View.set_slice_whole, Rect.mem_set_unit]
  exact Iff.rfl

/-- The ten row blocks cover the output: row r lies in block r / 10000. -/
theorem cover (i : S100000x16.Idx) :
    ∃ t : Fin cfg1.N, (cfg1.win 2).flush t = true ∧ i ∈ ((cfg1.win 2).blk t).view.set := by
  have hi0 : (i 0).val < 100000 := (i 0).isLt
  have hi1 : (i 1).val < 16 := (i 1).isLt
  obtain ⟨t, ht⟩ := idx_onto ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 16 ≤ (i 1).val ∧ (i 1).val < win1_2.index t (1 : Fin 2) * 16 + 16; omega

/-- After the launch the output array holds the product of the two input arrays as the launch found them. -/
theorem final (c : Dev nD) :
    (dat1 (F := Ideal) V c).arrAt 2 cfg1.N = mm (n := 100000) (K := 64) (w := 16) (V c main_v42) (V c main_arg3) :=
  (dat1 (F := Ideal) V c).arrAt_eq_of_cover 2 _ (fun t _ => flushed_eq V c t) cover

end Cert.KernelIdeal.Region1

end
-- ==== Proof.LibKeepdims.lean ====
/-
  Two layout facts for a row-wise reduction kept as a column: a vector of length a read as an a × 1 column, and an a × 1
  column repeated along b columns. Both are stated at an explicit index (row p, column c), over any element type.
-/
import Idealize.ShloMosaic.Lib.Pipeline.Value
import Idealize.ShloMosaic.Lib.ValueIdx

namespace Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Region2.lean ====
/-
  The last launch takes the logarithm of the softmax along each row of width 16, tiled over ten blocks of 10000 rows.
  At a grid point the body reads its block, takes each row's greatest entry (a lane reduction from minus infinity, kept
  as a column and repeated along the row), subtracts it, sums the exponentials along the row, and subtracts the
  logarithm of that sum.  Each output row depends on the same row of the input only, and the ten row blocks cover the
  output, so after the launch it holds the function of the whole input array.
-/
import proofs.«143458_j35210141892662_1_alg».proof.Proof.Gen.KernelIdeal.Frame
import proofs.«143458_j35210141892662_1_alg».proof.Proof.LibKeepdims
import proofs.«143458_j35210141892662_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Region2

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)

theorem hz : (![0, 0] : Fin 2 → Nat) = fun _ => 0 := funext fun a => by fin_cases a <;> rfl

/-- The reduced index p with column k put back is (p, k). -/
theorem lift_ix2 (h : S10000x16.Reduces [1] S10000) (p : Fin 10000) (k : Fin 16) :
    h.lift (ix1 p) k = ix2 p k := by
  funext c; apply Fin.ext
  fin_cases c <;> rfl

/-- A row's lane maximum from minus infinity is the fold of max over the row. -/
theorem laneMax_at (v : FVec Ideal S10000x16 .f32) (h : S10000x16.Reduces [1] S10000) (hφ : FKind.Formats .f32)
    (hacc : (0xFF800000#32 : BitVec 32) = FKind.maximumf.neutral .f32 hφ) (p : Fin 10000) :
    multiReduction .maximumf [1] S10000 v 0xFF800000#32 h hφ hacc (ix1 p) = rowMax (n := 10000) v p := by
  refine (Ideal.multiReduction_maximumf_single v _ h hφ hacc (ix1 p)).trans ?_
  unfold rowMax
  have hf : (v ∘ h.lift (ix1 p)) = fun k : Fin 16 => v (ix2 p k) := funext fun k => congrArg v (lift_ix2 h p k)
  exact congrArg (fun f => Finset.fold max negInf f (Finset.univ : Finset (Fin 16))) hf

/-- A row's lane sum from zero is the sum over the row. -/
theorem laneSum_at (v : FVec Ideal S10000x16 .f32) (h : S10000x16.Reduces [1] S10000) (hφ : FKind.Formats .f32)
    (hacc : (0x00000000#32 : BitVec 32) = FKind.add.neutral .f32 hφ) (p : Fin 10000) :
    multiReduction .add [1] S10000 v 0x00000000#32 h hφ hacc (ix1 p) = ∑ k : Fin 16, v (ix2 p k) := by
  refine (Ideal.multiReduction_add_single v _ h hφ hacc (ix1 p)).trans ?_
  show (∑ k : Fin 16, v (h.lift (ix1 p) k)) = ∑ k : Fin 16, v (ix2 p k)
  exact Finset.sum_congr rfl fun k _ => congrArg v (lift_ix2 h p k)

/-- The body's arithmetic on a block `v`, at entry (p, q): the logarithm of the softmax of row p. -/
theorem body_at (v : FVec Ideal S10000x16 .f32) (h1 : S10000x16.Reduces [1] S10000) (h2 : S10000.ShapeCasts S10000x1)
    (h3 : S10000x1.Broadcasts S10000x16) (hφ : FKind.Formats .f32)
    (hacc0 : (0xFF800000#32 : BitVec 32) = FKind.maximumf.neutral .f32 hφ)
    (hacc1 : (0x00000000#32 : BitVec 32) = FKind.add.neutral .f32 hφ) (p : Fin 10000) (q : Fin 16) :
    subf (subf v (broadcastTo S10000x16 (shapeCast S10000x1 (multiReduction .maximumf [1] S10000 v 0xFF800000#32 h1 hφ hacc0) h2) h3))
      (broadcastTo S10000x16 (log (shapeCast S10000x1 (multiReduction .add [1] S10000
        (exp (subf v (broadcastTo S10000x16 (shapeCast S10000x1 (multiReduction .maximumf [1] S10000 v 0xFF800000#32 h1 hφ hacc0) h2) h3)))
        0x00000000#32 h1 hφ hacc1) h2)) h3) (ix2 p q)
      = logSoftmax (n := 10000) v (ix2 p q) := by
  have hmax : ∀ q' : Fin 16, broadcastTo S10000x16 (shapeCast S10000x1 (multiReduction .maximumf [1] S10000 v 0xFF800000#32 h1 hφ hacc0) h2) h3 (ix2 p q')
      = rowMax (n := 10000) v p := fun q' =>
    (broadcastTo_a1_ab_apply _ h3 p q').trans ((shapeCast_a_a1_apply _ h2 p 0).trans (laneMax_at v h1 hφ hacc0 p))
  have hsub : ∀ q' : Fin 16, subf v (broadcastTo S10000x16 (shapeCast S10000x1 (multiReduction .maximumf [1] S10000 v 0xFF800000#32 h1 hφ hacc0) h2) h3) (ix2 p q')
      = v (ix2 p q') - rowMax (n := 10000) v p := fun q' => by
    show v (ix2 p q') - broadcastTo S10000x16 (shapeCast S10000x1 (multiReduction .maximumf [1] S10000 v 0xFF800000#32 h1 hφ hacc0) h2) h3 (ix2 p q') = _
    rw [hmax q']
  have hsum : multiReduction .add [1] S10000
        (exp (subf v (broadcastTo S10000x16 (shapeCast S10000x1 (multiReduction .maximumf [1] S10000 v 0xFF800000#32 h1 hφ hacc0) h2) h3)))
        0x00000000#32 h1 hφ hacc1 (ix1 p) = rowSumExp (n := 10000) v p (rowMax (n := 10000) v p) := by
    refine (laneSum_at _ h1 hφ hacc1 p).trans ?_
    unfold rowSumExp
    refine Finset.sum_congr rfl fun k _ => ?_
    show Ideal.exp (subf v (broadcastTo S10000x16 (shapeCast S10000x1 (multiReduction .maximumf [1] S10000 v 0xFF800000#32 h1 hφ hacc0) h2) h3) (ix2 p k)) = _
    rw [hsub k]
  have hlog : broadcastTo S10000x16 (log (shapeCast S10000x1 (multiReduction .add [1] S10000
        (exp (subf v (broadcastTo S10000x16 (shapeCast S10000x1 (multiReduction .maximumf [1] S10000 v 0xFF800000#32 h1 hφ hacc0) h2) h3)))
        0x00000000#32 h1 hφ hacc1) h2)) h3 (ix2 p q) = Ideal.log (rowSumExp (n := 10000) v p (rowMax (n := 10000) v p)) := by
    refine (broadcastTo_a1_ab_apply _ h3 p q).trans ?_
    show Ideal.log (shapeCast S10000x1 (multiReduction .add [1] S10000
        (exp (subf v (broadcastTo S10000x16 (shapeCast S10000x1 (multiReduction .maximumf [1] S10000 v 0xFF800000#32 h1 hφ hacc0) h2) h3)))
        0x00000000#32 h1 hφ hacc1) h2 (ix2 p (0 : Fin 1))) = _
    rw [shapeCast_a_a1_apply _ h2 p 0, hsum]
  show subf v (broadcastTo S10000x16 (shapeCast S10000x1 (multiReduction .maximumf [1] S10000 v 0xFF800000#32 h1 hφ hacc0) h2) h3) (ix2 p q)
      - broadcastTo S10000x16 (log (shapeCast S10000x1 (multiReduction .add [1] S10000
        (exp (subf v (broadcastTo S10000x16 (shapeCast S10000x1 (multiReduction .maximumf [1] S10000 v 0xFF800000#32 h1 hφ hacc0) h2) h3)))
        0x00000000#32 h1 hφ hacc1) h2)) h3 (ix2 p q) = _
  rw [hsub q, hlog, logSoftmax_apply]

/-- The body's value at entry (p, q) of its block. -/
theorem pay_at (x0 : Vec Ideal S10000x16 .f32) (p : Fin 10000) (q : Fin 16) :
    k2_pay1 (F := Ideal) x0 (ix2 p q) = logSoftmax (n := 10000) x0 (ix2 p q) := by
  unfold k2_pay1
  refine (body_at (shapeCast S10000x16 x0 shapeCasts_S10000x16_S10000x16) _ _ _ _ _ _ p q).trans ?_
  rw [shapeCast_self]

variable (V : (c : Dev nD) → (b : Ref sig .tc) → Buf (Elt Ideal) ((c : Thread nD τ).loc b))

/-- Where the blocks sit: the input and the output blocks at point t are the same row block, in column block 0. -/
theorem idx_facts : ∀ t : Fin cfg2.N, win2_0.index t (0 : Fin 2) = win2_1.index t (0 : Fin 2)
    ∧ win2_0.index t (1 : Fin 2) = 0
    ∧ win2_1.index t (1 : Fin 2) = 0 :=
  (by decide +kernel : ∀ t : Fin grid2.N, _)

/-- Every row block of the output is some point's. -/
theorem idx_onto : ∀ q0 : Fin 10, ∃ t : Fin cfg2.N, win2_1.index t = ![q0.val, 0] :=
  (by decide +kernel : ∀ q0 : Fin 10, ∃ t : Fin grid2.N, win2_1.index t = ![q0.val, 0])

/-- What point t writes back is block t of the function of the whole input array as the launch finds it. -/
theorem flushed_eq (c : Dev nD) (t : Fin cfg2.N) :
    (dat2 (F := Ideal) V c).flushed 1 t
      = ((cfg2.win 1).blk t).view.read (Elt Ideal) (logSoftmax (n := 100000) (V c main_v56)) := by
  show (cfg2.win 1).cut (grid2.coords t) ((dat2 (F := Ideal) V c).after 1 t) = _
  rw [after2_1]
  unfold out2_1
  rw [View.canon_unit_zero hz]
  simp only [View.ld_unit_zero (S := S10000x16) hz]
  obtain ⟨e0, e1, e2⟩ := idx_facts t
  funext j
  obtain ⟨p, q, rfl⟩ : ∃ (p : Fin 10000) (q : Fin 16), j = ix2 p q := ⟨j 0, j 1, eq_ix2 j⟩
  show k2_pay1 (F := Ideal) (iblk2 V c 0 t) (ix2 p q)
    = logSoftmax (n := 100000) (V c main_v56) (((cfg2.win 1).blk t).view.emb (ix2 p q))
  refine (pay_at (iblk2 V c 0 t) p q).trans ?_
  refine logSoftmax_row_congr (iblk2 V c 0 t) (V c main_v56) p q _ (fun k => ?_) ?_
  · show V c main_v56 (((cfg2.win 0).blk t).view.emb (ix2 p k)) = _
    refine congrArg (V c main_v56) ?_
    funext a; apply Fin.ext
    match a with
    | ⟨0, _⟩ => show win2_0.index t (0 : Fin 2) * 10000 + 1 * p.val = win2_1.index t (0 : Fin 2) * 10000 + 1 * p.val; omega
    | ⟨1, _⟩ => show win2_0.index t (1 : Fin 2) * 16 + 1 * k.val = k.val; omega
  · show V c main_v56 (((cfg2.win 0).blk t).view.emb (ix2 p q)) = _
    refine congrArg (V c main_v56) ?_
    funext a; apply Fin.ext
    match a with
    | ⟨0, _⟩ => show win2_0.index t (0 : Fin 2) * 10000 + 1 * p.val = win2_1.index t (0 : Fin 2) * 10000 + 1 * p.val; omega
    | ⟨1, _⟩ => show win2_0.index t (1 : Fin 2) * 16 + 1 * q.val = win2_1.index t (1 : Fin 2) * 16 + 1 * q.val; omega

/-- An index of the output is in point t's block iff each coordinate is in the block's range on its axis. -/
theorem mem_blk (t : Fin cfg2.N) (i : S100000x16.Idx) :
    i ∈ ((cfg2.win 1).blk t).view.set ↔ ∀ a : Fin 2, win2_1.index t a * S10000x16.size a ≤ (i a).val ∧ (i a).val < win2_1.index t a * S10000x16.size a + S10000x16.size a := by
  show i ∈ ((View.whole main_v57).slice (win2_1.rect t)).set ↔ _
  rw [View.set_slice_whole, Rect.mem_set_unit]
  exact Iff.rfl

/-- The ten row blocks cover the output: row r lies in block r / 10000. -/
theorem cover (i : S100000x16.Idx) :
    ∃ t : Fin cfg2.N, (cfg2.win 1).flush t = true ∧ i ∈ ((cfg2.win 1).blk t).view.set := by
  have hi0 : (i 0).val < 100000 := (i 0).isLt
  have hi1 : (i 1).val < 16 := (i 1).isLt
  obtain ⟨t, ht⟩ := idx_onto ⟨(i 0).val / 10000, by omega⟩
  have q0 : win2_1.index t (0 : Fin 2) = (i 0).val / 10000 := congrFun ht 0
  have q1 : win2_1.index t (1 : Fin 2) = 0 := congrFun ht 1
  refine ⟨t, flush2_1 t, ?_⟩
  rw [mem_blk]
  intro a
  match a with
  | ⟨0, _⟩ => show win2_1.index t (0 : Fin 2) * 10000 ≤ (i 0).val ∧ (i 0).val < win2_1.index t (0 : Fin 2) * 10000 + 10000; omega
  | ⟨1, _⟩ => show win2_1.index t (1 : Fin 2) * 16 ≤ (i 1).val ∧ (i 1).val < win2_1.index t (1 : Fin 2) * 16 + 16; omega

/-- After the launch the output array holds the logarithm of the softmax of the input array as the launch found it. -/
theorem final (c : Dev nD) :
    (dat2 (F := Ideal) V c).arrAt 1 cfg2.N = logSoftmax (n := 100000) (V c main_v56) :=
  (dat2 (F := Ideal) V c).arrAt_eq_of_cover 1 _ (fun t _ => flushed_eq V c t) cover

end Cert.KernelIdeal.Region2

end
-- ==== Proof.Stages.lean ====
/-
  The host-side arithmetic both programs share, as pure functions of arrays, in the reference program's vocabulary.
  From the 2 x E array of edges: the source and target index vectors (`rowOf`, `colOf`); an index made non-negative by
  adding the node count where it is below zero (`fixIdx`); the in-degree of each node as a scatter-add of ones at the
  targets (`deg`); its reciprocal square root where positive, zero elsewhere (`dis`); the per-edge weight, the product of
  that at the edge's source and at its target (`normOf`); and the aggregation of an N x C array `h`: gather the source
  rows, scale each by the edge's weight, scatter-add onto the target rows (`agg64`, `agg16` for C = 64, 16).  Last,
  the reference's own spelling of the logarithm of the softmax along rows (`lsRef`).
-/
import proofs.«143458_j35210141892662_1_alg».proof.Proof.Gen.ReferenceIdeal

noncomputable section

namespace Cert.ReferenceIdeal.Stages

open Cert.ReferenceIdeal Cert.ReferenceIdeal.Gen Idealize.ShloMosaic

variable {F : FTy → Type} [FloatOps F]

/-- The edges' source indices. -/
def rowOf (e : (⟨S2x1600000, .i32⟩ : BufTy).Contents (Elt F)) : (⟨S1600000, .i32⟩ : BufTy).Contents (Elt F) :=
  shapeCast S1600000 (extractStridedSlice S1x1600000 ![0, 0] e slices_S2x1600000_S1x1600000_0_0) shapeCasts_S1x1600000_S1600000

/-- The edges' target indices. -/
def colOf (e : (⟨S2x1600000, .i32⟩ : BufTy).Contents (Elt F)) : (⟨S1600000, .i32⟩ : BufTy).Contents (Elt F) :=
  shapeCast S1600000 (extractStridedSlice S1x1600000 ![1, 0] e slices_S2x1600000_S1x1600000_1_0) shapeCasts_S1x1600000_S1600000

/-- An index vector with the node count added where it is negative. -/
def fixIdx (r : (⟨S1600000, .i32⟩ : BufTy).Contents (Elt F)) : (⟨S1600000, .i32⟩ : BufTy).Contents (Elt F) :=
  select (cmpi .slt r (broadcastInDim S1600000 ![] bcast_S_S1600000 (constantI S_ 32 0#32)))
    (addi r (broadcastInDim S1600000 ![] bcast_S_S1600000 (constantI S_ 32 100000#32))) r

/-- An index vector as an E x 1 column. -/
def asCol (r : (⟨S1600000, .i32⟩ : BufTy).Contents (Elt F)) : (⟨S1600000x1, .i32⟩ : BufTy).Contents (Elt F) :=
  broadcastInDim S1600000x1 ![0] bcast_S1600000_S1600000x1_0 r

/-- Each node's in-degree: ones added at the targets. -/
def deg (col : (⟨S1600000, .i32⟩ : BufTy).Contents (Elt F)) : (⟨S100000, .f32⟩ : BufTy).Contents (Elt F) :=
  Host.scatterAdd scatter_S100000_S1600000x1_S1600000_n_0_0_1
    (broadcastInDim S100000 ![] bcast_S_S100000 (constant (F := F) S_ .f32 0x00000000#32)) (asCol (F := F) col)
    (broadcastInDim S1600000 ![] bcast_S_S1600000 (constant (F := F) S_ .f32 0x3F800000#32))

/-- The reciprocal square root of the in-degree where it is positive, zero elsewhere. -/
def dis (col : (⟨S1600000, .i32⟩ : BufTy).Contents (Elt F)) : (⟨S100000, .f32⟩ : BufTy).Contents (Elt F) :=
  select (cmpf (F := F) .ogt (deg (F := F) col) (broadcastInDim S100000 ![] bcast_S_S100000 (constant (F := F) S_ .f32 0x00000000#32)))
    (Host.rsqrt (maximumf (deg (F := F) col) (broadcastInDim S100000 ![] bcast_S_S100000 (constant (F := F) S_ .f32 0x3F800000#32))))
    (broadcastInDim S100000 ![] bcast_S_S100000 (id (constant (F := F) S_ .f32 0x00000000#32)))

/-- The per-edge weight. -/
def normOf (row col : (⟨S1600000, .i32⟩ : BufTy).Contents (Elt F)) : (⟨S1600000, .f32⟩ : BufTy).Contents (Elt F) :=
  mulf (Host.gather gather_S100000_S1600000x1_S1600000_n_0_n_n_0_1_1 (dis (F := F) col) (asCol (F := F) (fixIdx (F := F) row)))
    (Host.gather gather_S100000_S1600000x1_S1600000_n_0_n_n_0_1_1 (dis (F := F) col) (asCol (F := F) (fixIdx (F := F) col)))

/-- The aggregation of an N x 64 array along the edges. -/
def agg64 (h : (⟨S100000x64, .f32⟩ : BufTy).Contents (Elt F)) (row col : (⟨S1600000, .i32⟩ : BufTy).Contents (Elt F))
    (nrm : (⟨S1600000, .f32⟩ : BufTy).Contents (Elt F)) : (⟨S100000x64, .f32⟩ : BufTy).Contents (Elt F) :=
  Host.scatterAdd scatter_S100000x64_S1600000x1_S1600000x64_1_0_0_1
    (broadcastInDim S100000x64 ![] bcast_S_S100000x64 (constant (F := F) S_ .f32 0x00000000#32)) (asCol (F := F) col)
    (mulf (Host.gather gather_S100000x64_S1600000x1_S1600000x64_1_0_n_n_0_1_164 h (asCol (F := F) (fixIdx (F := F) row)))
      (broadcastInDim S1600000x64 ![0, 1] bcast_S1600000x1_S1600000x64_0_1 (broadcastInDim S1600000x1 ![0] bcast_S1600000_S1600000x1_0 nrm)))

/-- The aggregation of an N x 16 array along the edges. -/
def agg16 (h : (⟨S100000x16, .f32⟩ : BufTy).Contents (Elt F)) (row col : (⟨S1600000, .i32⟩ : BufTy).Contents (Elt F))
    (nrm : (⟨S1600000, .f32⟩ : BufTy).Contents (Elt F)) : (⟨S100000x16, .f32⟩ : BufTy).Contents (Elt F) :=
  Host.scatterAdd scatter_S100000x16_S1600000x1_S1600000x16_1_0_0_1
    (broadcastInDim S100000x16 ![] bcast_S_S100000x16 (constant (F := F) S_ .f32 0x00000000#32)) (asCol (F := F) col)
    (mulf (Host.gather gather_S100000x16_S1600000x1_S1600000x16_1_0_n_n_0_1_116 h (asCol (F := F) (fixIdx (F := F) row)))
      (broadcastInDim S1600000x16 ![0, 1] bcast_S1600000x1_S1600000x16_0_1 (broadcastInDim S1600000x1 ![0] bcast_S1600000_S1600000x1_0 nrm)))

/-- Each row's greatest entry, as the reference takes it, repeated along the row. -/
def lsMax (a : (⟨S100000x16, .f32⟩ : BufTy).Contents (Elt F)) : (⟨S100000x16, .f32⟩ : BufTy).Contents (Elt F) :=
  broadcastInDim S100000x16 ![0, 1] bcast_S100000x1_S100000x16_0_1 (broadcastInDim S100000x1 ![0] bcast_S100000_S100000x1_0
    (maximumf (broadcastInDim S100000 ![] bcast_S_S100000 (constant (F := F) S_ .f32 0xFF800000#32))
      (Host.reduce FloatOps.maximumf a (constant (F := F) S_ .f32 0xFF800000#32) reducesTo_S100000x16_S100000_d1 h_S_)))

/-- The reference's logarithm of the softmax along rows. -/
def lsRef (a : (⟨S100000x16, .f32⟩ : BufTy).Contents (Elt F)) : (⟨S100000x16, .f32⟩ : BufTy).Contents (Elt F) :=
  subf (subf a (lsMax (F := F) a))
    (broadcastInDim S100000x16 ![0, 1] bcast_S100000x1_S100000x16_0_1 (Host.log (broadcastInDim S100000x1 ![0] bcast_S100000_S100000x1_0
      (Host.reduceAdd (Host.exp (subf a (lsMax (F := F) a))) (constant (F := F) S_ .f32 0x00000000#32) reducesTo_S100000x16_S100000_d1 h_S_))))

end Cert.ReferenceIdeal.Stages

end
-- ==== Proof.KernelValue.lean ====
/-
  The idealized kernel's result as a function of its arguments.  The host operations before the first launch compute
  the edges' index vectors and weights; each launch's output is the whole-array function of its inputs (a matrix
  product, twice; the logarithm of the softmax); the host operations between launches aggregate the product along the
  edges.  Walking the contents from the last launch back to the start gives the result buffer as
  logSoftmax (agg16 (mm (agg64 (mm x W1)) W2)) of the launch contents.
-/
import proofs.«143458_j35210141892662_1_alg».proof.Proof.Gen.KernelIdeal.Frame
import proofs.«143458_j35210141892662_1_alg».proof.Proof.Region0
import proofs.«143458_j35210141892662_1_alg».proof.Proof.Region1
import proofs.«143458_j35210141892662_1_alg».proof.Proof.Region2
import proofs.«143458_j35210141892662_1_alg».proof.Proof.Stages

set_option maxRecDepth 16384

noncomputable section

namespace Cert.KernelIdeal.KValue

open Cert.KernelIdeal Cert.KernelIdeal.Gen Cert.Spec
open Idealize.ShloMosaic Idealize.ShloMosaic.TcCoe Idealize.SL.Sem Idealize.ShloMosaic.StableHlo
open Cert.ReferenceIdeal.Stages (rowOf colOf normOf agg64 agg16)

/-- What the kernel computes from its four arguments, at the ideal values. -/
def kValue (x : (⟨S100000x128, .f32⟩ : BufTy).Contents (Elt Ideal)) (e : (⟨S2x1600000, .i32⟩ : BufTy).Contents (Elt Ideal))
    (w1 : (⟨S128x64, .f32⟩ : BufTy).Contents (Elt Ideal)) (w2 : (⟨S64x16, .f32⟩ : BufTy).Contents (Elt Ideal)) :
    (⟨S100000x16, .f32⟩ : BufTy).Contents (Elt Ideal) :=
  logSoftmax (n := 100000) (agg16 (F := Ideal)
    (mm (n := 100000) (K := 64) (w := 16)
      (agg64 (F := Ideal) (mm (n := 100000) (K := 128) (w := 64) x w1)
        (rowOf (F := Ideal) e) (colOf (F := Ideal) e) (normOf (F := Ideal) (rowOf (F := Ideal) e) (colOf (F := Ideal) e)))
      w2)
    (rowOf (F := Ideal) e) (colOf (F := Ideal) e) (normOf (F := Ideal) (rowOf (F := Ideal) e) (colOf (F := Ideal) e)))

section Stretches

variable {F : FTy → Type} [FloatOps F] (Y : Valuation τ sig (Elt F))

theorem KA_v1 : after hostOps0_2 (after hostOps0_1 (after hostOps0 Y)) (Proc.devRef .tc main_v1) = rowOf (F := F) (Y (Proc.devRef .tc main_arg1)) := by
  simp only [hostOps0_2, hostOps0_1, hostOps0]
  after_results_simp <;> rfl

theorem KA_v3 : after hostOps0_2 (after hostOps0_1 (after hostOps0 Y)) (Proc.devRef .tc main_v3) = colOf (F := F) (Y (Proc.devRef .tc main_arg1)) := by
  simp only [hostOps0_2, hostOps0_1, hostOps0]
  after_results_simp <;> rfl

theorem KA_v28 : after hostOps0_2 (after hostOps0_1 (after hostOps0 Y)) (Proc.devRef .tc main_v28) = normOf (F := F) (rowOf (F := F) (Y (Proc.devRef .tc main_arg1))) (colOf (F := F) (Y (Proc.devRef .tc main_arg1))) := by
  simp only [hostOps0_2, hostOps0_1, hostOps0]
  after_results_simp <;> rfl

theorem KA_arg0 : after hostOps0_2 (after hostOps0_1 (after hostOps0 Y)) (Proc.devRef .tc main_arg0) = Y (Proc.devRef .tc main_arg0) := by
  simp only [hostOps0_2, hostOps0_1, hostOps0]
  after_results_simp <;> rfl

theorem KA_arg2 : after hostOps0_2 (after hostOps0_1 (after hostOps0 Y)) (Proc.devRef .tc main_arg2) = Y (Proc.devRef .tc main_arg2) := by
  simp only [hostOps0_2, hostOps0_1, hostOps0]
  after_results_simp <;> rfl

theorem KA_arg3 : after hostOps0_2 (after hostOps0_1 (after hostOps0 Y)) (Proc.devRef .tc main_arg3) = Y (Proc.devRef .tc main_arg3) := by
  simp only [hostOps0_2, hostOps0_1, hostOps0]
  after_results_simp <;> rfl

theorem KB_v42 : after hostOps1 Y (Proc.devRef .tc main_v42) = agg64 (F := F) (Y (Proc.devRef .tc main_v29)) (Y (Proc.devRef .tc main_v1)) (Y (Proc.devRef .tc main_v3)) (Y (Proc.devRef .tc main_v28)) := by
  simp only [hostOps1]
  after_results_simp <;> rfl

theorem KB_v1 : after hostOps1 Y (Proc.devRef .tc main_v1) = Y (Proc.devRef .tc main_v1) := by
  simp only [hostOps1]
  after_results_simp <;> rfl

theorem KB_v3 : after hostOps1 Y (Proc.devRef .tc main_v3) = Y (Proc.devRef .tc main_v3) := by
  simp only [hostOps1]
  after_results_simp <;> rfl

theorem KB_v28 : after hostOps1 Y (Proc.devRef .tc main_v28) = Y (Proc.devRef .tc main_v28) := by
  simp only [hostOps1]
  after_results_simp <;> rfl

theorem KB_arg3 : after hostOps1 Y (Proc.devRef .tc main_arg3) = Y (Proc.devRef .tc main_arg3) := by
  simp only [hostOps1]
  after_results_simp <;> rfl

theorem KD_v56 : after hostOps2 Y (Proc.devRef .tc main_v56) = agg16 (F := F) (Y (Proc.devRef .tc main_v43)) (Y (Proc.devRef .tc main_v1)) (Y (Proc.devRef .tc main_v3)) (Y (Proc.devRef .tc main_v28)) := by
  simp only [hostOps2]
  after_results_simp <;> rfl

end Stretches

variable (m : (ℓ : Loc nD τ sig) → Buf (Elt Ideal) ℓ) (ρ : Dev nD → PrngReg) (c : Dev nD)

/-- The result buffer after the last launch, as a function of the launch contents of the four arguments. -/
theorem value : W8 m ρ c (Proc.devRef .tc main_v57)
    = kValue (m ((c.tc : Thread nD τ).loc main_arg0)) (m ((c.tc : Thread nD τ).loc main_arg1)) (m ((c.tc : Thread nD τ).loc main_arg2)) (m ((c.tc : Thread nD τ).loc main_arg3)) := by
  have e1 : W3 m ρ c (Proc.devRef .tc main_v1) = (rowOf (F := Ideal) (m ((c.tc : Thread nD τ).loc main_arg1))) := KA_v1 (W0 m ρ c)
  have e3 : W3 m ρ c (Proc.devRef .tc main_v3) = (colOf (F := Ideal) (m ((c.tc : Thread nD τ).loc main_arg1))) := KA_v3 (W0 m ρ c)
  have e28 : W3 m ρ c (Proc.devRef .tc main_v28) = (normOf (F := Ideal) (rowOf (F := Ideal) (m ((c.tc : Thread nD τ).loc main_arg1))) (colOf (F := Ideal) (m ((c.tc : Thread nD τ).loc main_arg1)))) := KA_v28 (W0 m ρ c)
  have a0 : W3 m ρ c (Proc.devRef .tc main_arg0) = (m ((c.tc : Thread nD τ).loc main_arg0)) := KA_arg0 (W0 m ρ c)
  have a2 : W3 m ρ c (Proc.devRef .tc main_arg2) = (m ((c.tc : Thread nD τ).loc main_arg2)) := KA_arg2 (W0 m ρ c)
  have a3 : W3 m ρ c (Proc.devRef .tc main_arg3) = (m ((c.tc : Thread nD τ).loc main_arg3)) := KA_arg3 (W0 m ρ c)
  have h29 : W4 m ρ c (Proc.devRef .tc main_v29) = (mm (n := 100000) (K := 128) (w := 64) (m ((c.tc : Thread nD τ).loc main_arg0)) (m ((c.tc : Thread nD τ).loc main_arg2))) := by
    refine ((W4_arr m ρ c 2).trans (Region0.final (V3 m ρ) c)).trans ?_
    show mm (n := 100000) (K := 128) (w := 64) (W3 m ρ c (Proc.devRef .tc main_arg0)) (W3 m ρ c (Proc.devRef .tc main_arg2)) = _
    rw [a0, a2]
  have f1 : W4 m ρ c (Proc.devRef .tc main_v1) = (rowOf (F := Ideal) (m ((c.tc : Thread nD τ).loc main_arg1))) := (W4_of_ne m ρ c main_v1 (by decide)).trans e1
  have f3 : W4 m ρ c (Proc.devRef .tc main_v3) = (colOf (F := Ideal) (m ((c.tc : Thread nD τ).loc main_arg1))) := (W4_of_ne m ρ c main_v3 (by decide)).trans e3
  have f28 : W4 m ρ c (Proc.devRef .tc main_v28) = (normOf (F := Ideal) (rowOf (F := Ideal) (m ((c.tc : Thread nD τ).loc main_arg1))) (colOf (F := Ideal) (m ((c.tc : Thread nD τ).loc main_arg1)))) := (W4_of_ne m ρ c main_v28 (by decide)).trans e28
  have fa3 : W4 m ρ c (Proc.devRef .tc main_arg3) = (m ((c.tc : Thread nD τ).loc main_arg3)) := (W4_of_ne m ρ c main_arg3 (by decide)).trans a3
  have h42 : W5 m ρ c (Proc.devRef .tc main_v42) = (agg64 (F := Ideal) (mm (n := 100000) (K := 128) (w := 64) (m ((c.tc : Thread nD τ).loc main_arg0)) (m ((c.tc : Thread nD τ).loc main_arg2))) (rowOf (F := Ideal) (m ((c.tc : Thread nD τ).loc main_arg1))) (colOf (F := Ideal) (m ((c.tc : Thread nD τ).loc main_arg1))) (normOf (F := Ideal) (rowOf (F := Ideal) (m ((c.tc : Thread nD τ).loc main_arg1))) (colOf (F := Ideal) (m ((c.tc : Thread nD τ).loc main_arg1))))) := by
    refine (KB_v42 (W4 m ρ c)).trans ?_
    rw [h29, f1, f3, f28]
  have g1 : W5 m ρ c (Proc.devRef .tc main_v1) = (rowOf (F := Ideal) (m ((c.tc : Thread nD τ).loc main_arg1))) := (KB_v1 (W4 m ρ c)).trans f1
  have g3 : W5 m ρ c (Proc.devRef .tc main_v3) = (colOf (F := Ideal) (m ((c.tc : Thread nD τ).loc main_arg1))) := (KB_v3 (W4 m ρ c)).trans f3
  have g28 : W5 m ρ c (Proc.devRef .tc main_v28) = (normOf (F := Ideal) (rowOf (F := Ideal) (m ((c.tc : Thread nD τ).loc main_arg1))) (colOf (F := Ideal) (m ((c.tc : Thread nD τ).loc main_arg1)))) := (KB_v28 (W4 m ρ c)).trans f28
  have ga3 : W5 m ρ c (Proc.devRef .tc main_arg3) = (m ((c.tc : Thread nD τ).loc main_arg3)) := (KB_arg3 (W4 m ρ c)).trans fa3
  have h43 : W6 m ρ c (Proc.devRef .tc main_v43) = (mm (n := 100000) (K := 64) (w := 16) (agg64 (F := Ideal) (mm (n := 100000) (K := 128) (w := 64) (m ((c.tc : Thread nD τ).loc main_arg0)) (m ((c.tc : Thread nD τ).loc main_arg2))) (rowOf (F := Ideal) (m ((c.tc : Thread nD τ).loc main_arg1))) (colOf (F := Ideal) (m ((c.tc : Thread nD τ).loc main_arg1))) (normOf (F := Ideal) (rowOf (F := Ideal) (m ((c.tc : Thread nD τ).loc main_arg1))) (colOf (F := Ideal) (m ((c.tc : Thread nD τ).loc main_arg1))))) (m ((c.tc : Thread nD τ).loc main_arg3))) := by
    refine ((W6_arr m ρ c 2).trans (Region1.final (V5 m ρ) c)).trans ?_
    show mm (n := 100000) (K := 64) (w := 16) (W5 m ρ c (Proc.devRef .tc main_v42)) (W5 m ρ c (Proc.devRef .tc main_arg3)) = _
    rw [h42, ga3]
  have k1 : W6 m ρ c (Proc.devRef .tc main_v1) = (rowOf (F := Ideal) (m ((c.tc : Thread nD τ).loc main_arg1))) := (W6_of_ne m ρ c main_v1 (by decide)).trans g1
  have k3 : W6 m ρ c (Proc.devRef .tc main_v3) = (colOf (F := Ideal) (m ((c.tc : Thread nD τ).loc main_arg1))) := (W6_of_ne m ρ c main_v3 (by decide)).trans g3
  have k28 : W6 m ρ c (Proc.devRef .tc main_v28) = (normOf (F := Ideal) (rowOf (F := Ideal) (m ((c.tc : Thread nD τ).loc main_arg1))) (colOf (F := Ideal) (m ((c.tc : Thread nD τ).loc main_arg1)))) := (W6_of_ne m ρ c main_v28 (by decide)).trans g28
  have h56 : W7 m ρ c (Proc.devRef .tc main_v56) = (agg16 (F := Ideal) (mm (n := 100000) (K := 64) (w := 16) (agg64 (F := Ideal) (mm (n := 100000) (K := 128) (w := 64) (m ((c.tc : Thread nD τ).loc main_arg0)) (m ((c.tc : Thread nD τ).loc main_arg2))) (rowOf (F := Ideal) (m ((c.tc : Thread nD τ).loc main_arg1))) (colOf (F := Ideal) (m ((c.tc : Thread nD τ).loc main_arg1))) (normOf (F := Ideal) (rowOf (F := Ideal) (m ((c.tc : Thread nD τ).loc main_arg1))) (colOf (F := Ideal) (m ((c.tc : Thread nD τ).loc main_arg1))))) (m ((c.tc : Thread nD τ).loc main_arg3))) (rowOf (F := Ideal) (m ((c.tc : Thread nD τ).loc main_arg1))) (colOf (F := Ideal) (m ((c.tc : Thread nD τ).loc main_arg1))) (normOf (F := Ideal) (rowOf (F := Ideal) (m ((c.tc : Thread nD τ).loc main_arg1))) (colOf (F := Ideal) (m ((c.tc : Thread nD τ).loc main_arg1))))) := by
    refine (KD_v56 (W6 m ρ c)).trans ?_
    rw [h43, k1, k3, k28]
  refine ((W8_arr m ρ c 1).trans (Region2.final (V7 m ρ) c)).trans ?_
  show logSoftmax (n := 100000) (W7 m ρ c (Proc.devRef .tc main_v56)) = _
  rw [h56]
  rfl

end Cert.KernelIdeal.KValue

end
-- ==== Proof.RefValue.lean ====
/-
  The reference program's run, read stretch by stretch.  Its @main is a straight line of 129 host operations; cut into six
  stretches, each stretch's results are pure functions of what the stretch finds: the index vectors, the first product
  and the edge weights; the first aggregation; the index vectors again and the second product; the edge weights again;
  the second aggregation; the logarithm of the softmax.  Composed, the result buffer ends at `refValue` of the four
  arguments, and no operation writes an argument.
-/
import proofs.«143458_j35210141892662_1_alg».proof.Proof.RefRun
import proofs.«143458_j35210141892662_1_alg».proof.Proof.Stages

set_option maxRecDepth 16384

noncomputable section

namespace Cert.ReferenceIdeal.RefValue

open Cert.ReferenceIdeal Cert.ReferenceIdeal.Gen Cert.ReferenceIdeal.Stages
open Idealize.ShloMosaic Idealize.ShloMosaic.TcCoe Idealize.SL.Sem Idealize.ShloMosaic.StableHlo

variable {F : FTy → Type} [FloatOps F]

/-- What the reference computes from its four arguments. -/
def refValue (x : (⟨S100000x128, .f32⟩ : BufTy).Contents (Elt F)) (e : (⟨S2x1600000, .i32⟩ : BufTy).Contents (Elt F))
    (w1 : (⟨S128x64, .f32⟩ : BufTy).Contents (Elt F)) (w2 : (⟨S64x16, .f32⟩ : BufTy).Contents (Elt F)) :
    (⟨S100000x16, .f32⟩ : BufTy).Contents (Elt F) :=
  lsRef (F := F) (agg16 (F := F)
    (Host.dotGeneral dot_S100000x64_S64x16_S100000x16_1_0_0_1_n_n none
      (agg64 (F := F) (Host.dotGeneral dot_S100000x128_S128x64_S100000x64_1_0_0_1_n_n none x w1)
        (rowOf (F := F) e) (colOf (F := F) e) (normOf (F := F) (rowOf (F := F) e) (colOf (F := F) e)))
      w2)
    (rowOf (F := F) e) (colOf (F := F) e) (normOf (F := F) (rowOf (F := F) e) (colOf (F := F) e)))

/-- Operations 0 to 40 of the reference's @main, in order. -/
def opsA : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    binary main_arg0 main_arg2 main_v4 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    nullary main_cst (constant S_ .f32 0x3F800000#32),
    unary main_cst main_v5 (broadcastInDim S1600000 ![] bcast_S_S1600000 : (⟨S_, .f32⟩ : BufTy).Contents (Elt F) → (⟨S1600000, .f32⟩ : BufTy).Contents (Elt F)),
    nullary main_cst_0 (constant S_ .f32 0x00000000#32),
    unary main_cst_0 main_v6 (broadcastInDim S100000 ![] bcast_S_S100000 : (⟨S_, .f32⟩ : BufTy).Contents (Elt F) → (⟨S100000, .f32⟩ : BufTy).Contents (Elt F)),
    unary main_v3 main_v7 (broadcastInDim S1600000x1 ![0] bcast_S1600000_S1600000x1_0 : (⟨S1600000, .i32⟩ : BufTy).Contents (Elt F) → (⟨S1600000x1, .i32⟩ : BufTy).Contents (Elt F)),
    ternary main_v6 main_v7 main_v5 main_v8 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_1 (constant S_ .f32 0x00000000#32),
    unary main_cst_1 main_v9 (broadcastInDim S100000 ![] bcast_S_S100000 : (⟨S_, .f32⟩ : BufTy).Contents (Elt F) → (⟨S100000, .f32⟩ : BufTy).Contents (Elt F)),
    binary main_v8 main_v9 main_v10 (cmpf .ogt : (⟨S100000, .f32⟩ : BufTy).Contents (Elt F) → (⟨S100000, .f32⟩ : BufTy).Contents (Elt F) → (⟨S100000, .i1⟩ : BufTy).Contents (Elt F)),
    nullary main_cst_2 (constant S_ .f32 0x3F800000#32),
    unary main_cst_2 main_v11 (broadcastInDim S100000 ![] bcast_S_S100000 : (⟨S_, .f32⟩ : BufTy).Contents (Elt F) → (⟨S100000, .f32⟩ : BufTy).Contents (Elt F)),
    binary main_v8 main_v11 main_v12 (maximumf : (⟨S100000, .f32⟩ : BufTy).Contents (Elt F) → (⟨S100000, .f32⟩ : BufTy).Contents (Elt F) → (⟨S100000, .f32⟩ : BufTy).Contents (Elt F)),
    unary main_v12 main_v13 (Host.rsqrt : (⟨S100000, .f32⟩ : BufTy).Contents (Elt F) → (⟨S100000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v10) (TRef.of (T := ⟨S100000, .f32⟩) main_v13) (TRef.of (T := ⟨S100000, .f32⟩) main_call0_v1) (TRef.of (T := ⟨S100000, .f32⟩) main_v14) select,
    nullary main_c (constantI S_ 32 0#32),
    unary main_c main_v15 (broadcastInDim S1600000 ![] bcast_S_S1600000 : (⟨S_, .i32⟩ : BufTy).Contents (Elt F) → (⟨S1600000, .i32⟩ : BufTy).Contents (Elt F)),
    binary main_v1 main_v15 main_v16 (cmpi .slt : (⟨S1600000, .i32⟩ : BufTy).Contents (Elt F) → (⟨S1600000, .i32⟩ : BufTy).Contents (Elt F) → (⟨S1600000, .i1⟩ : BufTy).Contents (Elt F)),
    nullary main_c_4 (constantI S_ 32 100000#32),
    unary main_c_4 main_v17 (broadcastInDim S1600000 ![] bcast_S_S1600000 : (⟨S_, .i32⟩ : BufTy).Contents (Elt F) → (⟨S1600000, .i32⟩ : BufTy).Contents (Elt F)),
    binary main_v1 main_v17 main_v18 (addi : (⟨S1600000, .i32⟩ : BufTy).Contents (Elt F) → (⟨S1600000, .i32⟩ : BufTy).Contents (Elt F) → (⟨S1600000, .i32⟩ : BufTy).Contents (Elt F)),
    ternary main_v16 main_v18 main_v1 main_v19 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v19 main_v20 (broadcastInDim S1600000x1 ![0] bcast_S1600000_S1600000x1_0 : (⟨S1600000, .i32⟩ : BufTy).Contents (Elt F) → (⟨S1600000x1, .i32⟩ : BufTy).Contents (Elt F)),
    binary main_v14 main_v20 main_v21 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    nullary main_c_5 (constantI S_ 32 0#32),
    unary main_c_5 main_v22 (broadcastInDim S1600000 ![] bcast_S_S1600000 : (⟨S_, .i32⟩ : BufTy).Contents (Elt F) → (⟨S1600000, .i32⟩ : BufTy).Contents (Elt F)),
    binary main_v3 main_v22 main_v23 (cmpi .slt : (⟨S1600000, .i32⟩ : BufTy).Contents (Elt F) → (⟨S1600000, .i32⟩ : BufTy).Contents (Elt F) → (⟨S1600000, .i1⟩ : BufTy).Contents (Elt F)),
    nullary main_c_6 (constantI S_ 32 100000#32),
    unary main_c_6 main_v24 (broadcastInDim S1600000 ![] bcast_S_S1600000 : (⟨S_, .i32⟩ : BufTy).Contents (Elt F) → (⟨S1600000, .i32⟩ : BufTy).Contents (Elt F)),
    binary main_v3 main_v24 main_v25 (addi : (⟨S1600000, .i32⟩ : BufTy).Contents (Elt F) → (⟨S1600000, .i32⟩ : BufTy).Contents (Elt F) → (⟨S1600000, .i32⟩ : BufTy).Contents (Elt F)),
    ternary main_v23 main_v25 main_v3 main_v26 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v26 main_v27 (broadcastInDim S1600000x1 ![0] bcast_S1600000_S1600000x1_0 : (⟨S1600000, .i32⟩ : BufTy).Contents (Elt F) → (⟨S1600000x1, .i32⟩ : BufTy).Contents (Elt F)),
    binary main_v14 main_v27 main_v28 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v21 main_v28 main_v29 (mulf : (⟨S1600000, .f32⟩ : BufTy).Contents (Elt F) → (⟨S1600000, .f32⟩ : BufTy).Contents (Elt F) → (⟨S1600000, .f32⟩ : BufTy).Contents (Elt F)) ]

/-- Operations 41 to 56 of the reference's @main, in order. -/
def opsB : List (HloOp τ sig (Elt F)) :=
  [ nullary main_c_7 (constantI S_ 32 0#32),
    unary main_c_7 main_v30 (broadcastInDim S1600000 ![] bcast_S_S1600000 : (⟨S_, .i32⟩ : BufTy).Contents (Elt F) → (⟨S1600000, .i32⟩ : BufTy).Contents (Elt F)),
    binary main_v1 main_v30 main_v31 (cmpi .slt : (⟨S1600000, .i32⟩ : BufTy).Contents (Elt F) → (⟨S1600000, .i32⟩ : BufTy).Contents (Elt F) → (⟨S1600000, .i1⟩ : BufTy).Contents (Elt F)),
    nullary main_c_8 (constantI S_ 32 100000#32),
    unary main_c_8 main_v32 (broadcastInDim S1600000 ![] bcast_S_S1600000 : (⟨S_, .i32⟩ : BufTy).Contents (Elt F) → (⟨S1600000, .i32⟩ : BufTy).Contents (Elt F)),
    binary main_v1 main_v32 main_v33 (addi : (⟨S1600000, .i32⟩ : BufTy).Contents (Elt F) → (⟨S1600000, .i32⟩ : BufTy).Contents (Elt F) → (⟨S1600000, .i32⟩ : BufTy).Contents (Elt F)),
    ternary main_v31 main_v33 main_v1 main_v34 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v34 main_v35 (broadcastInDim S1600000x1 ![0] bcast_S1600000_S1600000x1_0 : (⟨S1600000, .i32⟩ : BufTy).Contents (Elt F) → (⟨S1600000x1, .i32⟩ : BufTy).Contents (Elt F)),
    binary main_v4 main_v35 main_v36 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_v29 main_v37 (broadcastInDim S1600000x1 ![0] bcast_S1600000_S1600000x1_0 : (⟨S1600000, .f32⟩ : BufTy).Contents (Elt F) → (⟨S1600000x1, .f32⟩ : BufTy).Contents (Elt F)),
    unary main_v37 main_v38 (broadcastInDim S1600000x64 ![0, 1] bcast_S1600000x1_S1600000x64_0_1 : (⟨S1600000x1, .f32⟩ : BufTy).Contents (Elt F) → (⟨S1600000x64, .f32⟩ : BufTy).Contents (Elt F)),
    binary main_v36 main_v38 main_v39 (mulf : (⟨S1600000x64, .f32⟩ : BufTy).Contents (Elt F) → (⟨S1600000x64, .f32⟩ : BufTy).Contents (Elt F) → (⟨S1600000x64, .f32⟩ : BufTy).Contents (Elt F)),
    nullary main_cst_9 (constant S_ .f32 0x00000000#32),
    unary main_cst_9 main_v40 (broadcastInDim S100000x64 ![] bcast_S_S100000x64 : (⟨S_, .f32⟩ : BufTy).Contents (Elt F) → (⟨S100000x64, .f32⟩ : BufTy).Contents (Elt F)),
    unary main_v3 main_v41 (broadcastInDim S1600000x1 ![0] bcast_S1600000_S1600000x1_0 : (⟨S1600000, .i32⟩ : BufTy).Contents (Elt F) → (⟨S1600000x1, .i32⟩ : BufTy).Contents (Elt F)),
    ternary main_v40 main_v41 main_v39 main_v42 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)) ]

/-- Operations 57 to 61 of the reference's @main, in order. -/
def opsC : List (HloOp τ sig (Elt F)) :=
  [ unary main_arg1 main_v43 ((extractStridedSlice S1x1600000 ![0, 0] · slices_S2x1600000_S1x1600000_0_0) : (⟨S2x1600000, .i32⟩ : BufTy).Contents (Elt F) → (⟨S1x1600000, .i32⟩ : BufTy).Contents (Elt F)),
    reshape main_v43 main_v44 rfl shapeCasts_S1x1600000_S1600000,
    unary main_arg1 main_v45 ((extractStridedSlice S1x1600000 ![1, 0] · slices_S2x1600000_S1x1600000_1_0) : (⟨S2x1600000, .i32⟩ : BufTy).Contents (Elt F) → (⟨S1x1600000, .i32⟩ : BufTy).Contents (Elt F)),
    reshape main_v45 main_v46 rfl shapeCasts_S1x1600000_S1600000,
    binary main_v42 main_arg3 main_v47 ((fun l r => Host.dotGeneral dot_S100000x64_S64x16_S100000x16_1_0_0_1_n_n none l r) : (⟨S100000x64, .f32⟩ : BufTy).Contents (Elt F) → (⟨S64x16, .f32⟩ : BufTy).Contents (Elt F) → (⟨S100000x16, .f32⟩ : BufTy).Contents (Elt F)) ]

/-- Operations 62 to 97 of the reference's @main, in order. -/
def opsD : List (HloOp τ sig (Elt F)) :=
  [ nullary main_cst_10 (constant S_ .f32 0x3F800000#32),
    unary main_cst_10 main_v48 (broadcastInDim S1600000 ![] bcast_S_S1600000 : (⟨S_, .f32⟩ : BufTy).Contents (Elt F) → (⟨S1600000, .f32⟩ : BufTy).Contents (Elt F)),
    nullary main_cst_11 (constant S_ .f32 0x00000000#32),
    unary main_cst_11 main_v49 (broadcastInDim S100000 ![] bcast_S_S100000 : (⟨S_, .f32⟩ : BufTy).Contents (Elt F) → (⟨S100000, .f32⟩ : BufTy).Contents (Elt F)),
    unary main_v46 main_v50 (broadcastInDim S1600000x1 ![0] bcast_S1600000_S1600000x1_0 : (⟨S1600000, .i32⟩ : BufTy).Contents (Elt F) → (⟨S1600000x1, .i32⟩ : BufTy).Contents (Elt F)),
    ternary main_v49 main_v50 main_v48 main_v51 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_12 (constant S_ .f32 0x00000000#32),
    unary main_cst_12 main_v52 (broadcastInDim S100000 ![] bcast_S_S100000 : (⟨S_, .f32⟩ : BufTy).Contents (Elt F) → (⟨S100000, .f32⟩ : BufTy).Contents (Elt F)),
    binary main_v51 main_v52 main_v53 (cmpf .ogt : (⟨S100000, .f32⟩ : BufTy).Contents (Elt F) → (⟨S100000, .f32⟩ : BufTy).Contents (Elt F) → (⟨S100000, .i1⟩ : BufTy).Contents (Elt F)),
    nullary main_cst_13 (constant S_ .f32 0x3F800000#32),
    unary main_cst_13 main_v54 (broadcastInDim S100000 ![] bcast_S_S100000 : (⟨S_, .f32⟩ : BufTy).Contents (Elt F) → (⟨S100000, .f32⟩ : BufTy).Contents (Elt F)),
    binary main_v51 main_v54 main_v55 (maximumf : (⟨S100000, .f32⟩ : BufTy).Contents (Elt F) → (⟨S100000, .f32⟩ : BufTy).Contents (Elt F) → (⟨S100000, .f32⟩ : BufTy).Contents (Elt F)),
    unary main_v55 main_v56 (Host.rsqrt : (⟨S100000, .f32⟩ : BufTy).Contents (Elt F) → (⟨S100000, .f32⟩ : BufTy).Contents (Elt F)),
    nullary main_cst_14 (constant S_ .f32 0x00000000#32),
    TRef.unary (TRef.of (T := ⟨S_, .f32⟩) main_cst_14) (TRef.of (T := ⟨S_, .f32⟩) main_call1_v0) id,
    TRef.unary (TRef.of (T := ⟨S_, .f32⟩) main_call1_v0) (TRef.of (T := ⟨S100000, .f32⟩) main_call1_v1) (broadcastInDim S100000 ![] bcast_S_S100000),
    TRef.ternary (TRef.of (T := ⟨S100000, .i1⟩) main_v53) (TRef.of (T := ⟨S100000, .f32⟩) main_v56) (TRef.of (T := ⟨S100000, .f32⟩) main_call1_v1) (TRef.of (T := ⟨S100000, .f32⟩) main_v57) select,
    nullary main_c_15 (constantI S_ 32 0#32),
    unary main_c_15 main_v58 (broadcastInDim S1600000 ![] bcast_S_S1600000 : (⟨S_, .i32⟩ : BufTy).Contents (Elt F) → (⟨S1600000, .i32⟩ : BufTy).Contents (Elt F)),
    binary main_v44 main_v58 main_v59 (cmpi .slt : (⟨S1600000, .i32⟩ : BufTy).Contents (Elt F) → (⟨S1600000, .i32⟩ : BufTy).Contents (Elt F) → (⟨S1600000, .i1⟩ : BufTy).Contents (Elt F)),
    nullary main_c_16 (constantI S_ 32 100000#32),
    unary main_c_16 main_v60 (broadcastInDim S1600000 ![] bcast_S_S1600000 : (⟨S_, .i32⟩ : BufTy).Contents (Elt F) → (⟨S1600000, .i32⟩ : BufTy).Contents (Elt F)),
    binary main_v44 main_v60 main_v61 (addi : (⟨S1600000, .i32⟩ : BufTy).Contents (Elt F) → (⟨S1600000, .i32⟩ : BufTy).Contents (Elt F) → (⟨S1600000, .i32⟩ : BufTy).Contents (Elt F)),
    ternary main_v59 main_v61 main_v44 main_v62 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v62 main_v63 (broadcastInDim S1600000x1 ![0] bcast_S1600000_S1600000x1_0 : (⟨S1600000, .i32⟩ : BufTy).Contents (Elt F) → (⟨S1600000x1, .i32⟩ : BufTy).Contents (Elt F)),
    binary main_v57 main_v63 main_v64 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    nullary main_c_17 (constantI S_ 32 0#32),
    unary main_c_17 main_v65 (broadcastInDim S1600000 ![] bcast_S_S1600000 : (⟨S_, .i32⟩ : BufTy).Contents (Elt F) → (⟨S1600000, .i32⟩ : BufTy).Contents (Elt F)),
    binary main_v46 main_v65 main_v66 (cmpi .slt : (⟨S1600000, .i32⟩ : BufTy).Contents (Elt F) → (⟨S1600000, .i32⟩ : BufTy).Contents (Elt F) → (⟨S1600000, .i1⟩ : BufTy).Contents (Elt F)),
    nullary main_c_18 (constantI S_ 32 100000#32),
    unary main_c_18 main_v67 (broadcastInDim S1600000 ![] bcast_S_S1600000 : (⟨S_, .i32⟩ : BufTy).Contents (Elt F) → (⟨S1600000, .i32⟩ : BufTy).Contents (Elt F)),
    binary main_v46 main_v67 main_v68 (addi : (⟨S1600000, .i32⟩ : BufTy).Contents (Elt F) → (⟨S1600000, .i32⟩ : BufTy).Contents (Elt F) → (⟨S1600000, .i32⟩ : BufTy).Contents (Elt F)),
    ternary main_v66 main_v68 main_v46 main_v69 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v69 main_v70 (broadcastInDim S1600000x1 ![0] bcast_S1600000_S1600000x1_0 : (⟨S1600000, .i32⟩ : BufTy).Contents (Elt F) → (⟨S1600000x1, .i32⟩ : BufTy).Contents (Elt F)),
    binary main_v57 main_v70 main_v71 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v64 main_v71 main_v72 (mulf : (⟨S1600000, .f32⟩ : BufTy).Contents (Elt F) → (⟨S1600000, .f32⟩ : BufTy).Contents (Elt F) → (⟨S1600000, .f32⟩ : BufTy).Contents (Elt F)) ]

/-- Operations 98 to 113 of the reference's @main, in order. -/
def opsE : List (HloOp τ sig (Elt F)) :=
  [ nullary main_c_19 (constantI S_ 32 0#32),
    unary main_c_19 main_v73 (broadcastInDim S1600000 ![] bcast_S_S1600000 : (⟨S_, .i32⟩ : BufTy).Contents (Elt F) → (⟨S1600000, .i32⟩ : BufTy).Contents (Elt F)),
    binary main_v44 main_v73 main_v74 (cmpi .slt : (⟨S1600000, .i32⟩ : BufTy).Contents (Elt F) → (⟨S1600000, .i32⟩ : BufTy).Contents (Elt F) → (⟨S1600000, .i1⟩ : BufTy).Contents (Elt F)),
    nullary main_c_20 (constantI S_ 32 100000#32),
    unary main_c_20 main_v75 (broadcastInDim S1600000 ![] bcast_S_S1600000 : (⟨S_, .i32⟩ : BufTy).Contents (Elt F) → (⟨S1600000, .i32⟩ : BufTy).Contents (Elt F)),
    binary main_v44 main_v75 main_v76 (addi : (⟨S1600000, .i32⟩ : BufTy).Contents (Elt F) → (⟨S1600000, .i32⟩ : BufTy).Contents (Elt F) → (⟨S1600000, .i32⟩ : BufTy).Contents (Elt F)),
    ternary main_v74 main_v76 main_v44 main_v77 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v77 main_v78 (broadcastInDim S1600000x1 ![0] bcast_S1600000_S1600000x1_0 : (⟨S1600000, .i32⟩ : BufTy).Contents (Elt F) → (⟨S1600000x1, .i32⟩ : BufTy).Contents (Elt F)),
    binary main_v47 main_v78 main_v79 ((fun x i => Host.gather gather_S100000x16_S1600000x1_S1600000x16_1_0_n_n_0_1_116 x i) : (⟨S100000x16, .f32⟩ : BufTy).Contents (Elt F) → (⟨S1600000x1, .i32⟩ : BufTy).Contents (Elt F) → (⟨S1600000x16, .f32⟩ : BufTy).Contents (Elt F)),
    unary main_v72 main_v80 (broadcastInDim S1600000x1 ![0] bcast_S1600000_S1600000x1_0 : (⟨S1600000, .f32⟩ : BufTy).Contents (Elt F) → (⟨S1600000x1, .f32⟩ : BufTy).Contents (Elt F)),
    unary main_v80 main_v81 (broadcastInDim S1600000x16 ![0, 1] bcast_S1600000x1_S1600000x16_0_1 : (⟨S1600000x1, .f32⟩ : BufTy).Contents (Elt F) → (⟨S1600000x16, .f32⟩ : BufTy).Contents (Elt F)),
    binary main_v79 main_v81 main_v82 (mulf : (⟨S1600000x16, .f32⟩ : BufTy).Contents (Elt F) → (⟨S1600000x16, .f32⟩ : BufTy).Contents (Elt F) → (⟨S1600000x16, .f32⟩ : BufTy).Contents (Elt F)),
    nullary main_cst_21 (constant S_ .f32 0x00000000#32),
    unary main_cst_21 main_v83 (broadcastInDim S100000x16 ![] bcast_S_S100000x16 : (⟨S_, .f32⟩ : BufTy).Contents (Elt F) → (⟨S100000x16, .f32⟩ : BufTy).Contents (Elt F)),
    unary main_v46 main_v84 (broadcastInDim S1600000x1 ![0] bcast_S1600000_S1600000x1_0 : (⟨S1600000, .i32⟩ : BufTy).Contents (Elt F) → (⟨S1600000x1, .i32⟩ : BufTy).Contents (Elt F)),
    ternary main_v83 main_v84 main_v82 main_v85 ((fun x i u => Host.scatterAdd scatter_S100000x16_S1600000x1_S1600000x16_1_0_0_1 x i u) : (⟨S100000x16, .f32⟩ : BufTy).Contents (Elt F) → (⟨S1600000x1, .i32⟩ : BufTy).Contents (Elt F) → (⟨S1600000x16, .f32⟩ : BufTy).Contents (Elt F) → (⟨S100000x16, .f32⟩ : BufTy).Contents (Elt F)) ]

/-- Operations 114 to 128 of the reference's @main, in order, as the program spells them (through typed references). -/
def opsF : List (HloOp τ sig (Elt F)) :=
  [ TRef.nullary (TRef.of (T := ⟨S_, .f32⟩) main_call2_cst) (constant S_ .f32 0xFF800000#32),
    TRef.binary (TRef.of (T := ⟨S100000x16, .f32⟩) main_v85) (TRef.of (T := ⟨S_, .f32⟩) main_call2_cst) (TRef.of (T := ⟨S100000, .f32⟩) main_call2_v0) (fun x v => Host.reduce FloatOps.maximumf x v reducesTo_S100000x16_S100000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf,
    TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x16, .f32⟩) main_call2_v4) (broadcastInDim S100000x16 ![0, 1] bcast_S100000x1_S100000x16_0_1),
    TRef.binary (TRef.of (T := ⟨S100000x16, .f32⟩) main_v85) (TRef.of (T := ⟨S100000x16, .f32⟩) main_call2_v4) (TRef.of (T := ⟨S100000x16, .f32⟩) main_call2_v5) subf,
    TRef.unary (TRef.of (T := ⟨S100000x16, .f32⟩) main_call2_v5) (TRef.of (T := ⟨S100000x16, .f32⟩) main_call2_v6) Host.exp,
    TRef.nullary (TRef.of (T := ⟨S_, .f32⟩) main_call2_cst_1) (constant S_ .f32 0x00000000#32),
    TRef.binary (TRef.of (T := ⟨S100000x16, .f32⟩) main_call2_v6) (TRef.of (T := ⟨S_, .f32⟩) main_call2_cst_1) (TRef.of (T := ⟨S100000, .f32⟩) main_call2_v7) (fun x v => Host.reduceAdd x v reducesTo_S100000x16_S100000_d1 h_S_),
    TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x16, .f32⟩) main_call2_v10) (broadcastInDim S100000x16 ![0, 1] bcast_S100000x1_S100000x16_0_1),
    TRef.binary (TRef.of (T := ⟨S100000x16, .f32⟩) main_call2_v5) (TRef.of (T := ⟨S100000x16, .f32⟩) main_call2_v10) (TRef.of (T := ⟨S100000x16, .f32⟩) main_v86) subf ]

/-- The last stretch with its two reductions left as parameters `R1` (the row maximum) and `R2` (the row sum). -/
def opsFg (R1 R2 : FVec F S100000x16 .f32 → FVec F S_ .f32 → FVec F S100000 .f32) : List (HloOp τ sig (Elt F)) :=
  [ TRef.nullary (TRef.of (T := ⟨S_, .f32⟩) main_call2_cst) (constant S_ .f32 0xFF800000#32),
    TRef.binary (TRef.of (T := ⟨S100000x16, .f32⟩) main_v85) (TRef.of (T := ⟨S_, .f32⟩) main_call2_cst) (TRef.of (T := ⟨S100000, .f32⟩) main_call2_v0) R1,
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf,
    TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x16, .f32⟩) main_call2_v4) (broadcastInDim S100000x16 ![0, 1] bcast_S100000x1_S100000x16_0_1),
    TRef.binary (TRef.of (T := ⟨S100000x16, .f32⟩) main_v85) (TRef.of (T := ⟨S100000x16, .f32⟩) main_call2_v4) (TRef.of (T := ⟨S100000x16, .f32⟩) main_call2_v5) subf,
    TRef.unary (TRef.of (T := ⟨S100000x16, .f32⟩) main_call2_v5) (TRef.of (T := ⟨S100000x16, .f32⟩) main_call2_v6) Host.exp,
    TRef.nullary (TRef.of (T := ⟨S_, .f32⟩) main_call2_cst_1) (constant S_ .f32 0x00000000#32),
    TRef.binary (TRef.of (T := ⟨S100000x16, .f32⟩) main_call2_v6) (TRef.of (T := ⟨S_, .f32⟩) main_call2_cst_1) (TRef.of (T := ⟨S100000, .f32⟩) main_call2_v7) R2,
    TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x16, .f32⟩) main_call2_v10) (broadcastInDim S100000x16 ![0, 1] bcast_S100000x1_S100000x16_0_1),
    TRef.binary (TRef.of (T := ⟨S100000x16, .f32⟩) main_call2_v5) (TRef.of (T := ⟨S100000x16, .f32⟩) main_call2_v10) (TRef.of (T := ⟨S100000x16, .f32⟩) main_v86) subf ]

/-- Each row's greatest entry repeated along the row, over the reduction `R1`. -/
def lsMaxGen (R1 : FVec F S100000x16 .f32 → FVec F S_ .f32 → FVec F S100000 .f32) (a : FVec F S100000x16 .f32) : FVec F S100000x16 .f32 :=
  broadcastInDim S100000x16 ![0, 1] bcast_S100000x1_S100000x16_0_1 (broadcastInDim S100000x1 ![0] bcast_S100000_S100000x1_0
    (maximumf (broadcastInDim S100000 ![] bcast_S_S100000 (constant (F := F) S_ .f32 0xFF800000#32))
      (R1 a (constant (F := F) S_ .f32 0xFF800000#32))))

/-- What the last stretch computes from its input, over the two reductions. -/
def lsGen (R1 R2 : FVec F S100000x16 .f32 → FVec F S_ .f32 → FVec F S100000 .f32) (a : FVec F S100000x16 .f32) : FVec F S100000x16 .f32 :=
  subf (subf a (lsMaxGen (F := F) R1 a))
    (broadcastInDim S100000x16 ![0, 1] bcast_S100000x1_S100000x16_0_1 (Host.log (broadcastInDim S100000x1 ![0] bcast_S100000_S100000x1_0
      (R2 (Host.exp (subf a (lsMaxGen (F := F) R1 a))) (constant (F := F) S_ .f32 0x00000000#32)))))

/-- The six stretches, in order, are the whole line. -/
theorem ops_split : (ValueP.ops : List (HloOp τ sig (Elt F))) = opsA ++ (opsB ++ (opsC ++ (opsD ++ (opsE ++ opsF)))) := rfl

/-- The contents after two stretches run one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

section Stretches

variable (Y : Valuation τ sig (Elt F))

theorem A_v1 : after (opsA (F := F)) Y (Proc.devRef .tc main_v1) = rowOf (F := F) (Y (Proc.devRef .tc main_arg1)) := by
  unfold opsA
  after_results_simp <;> rfl

theorem A_v3 : after (opsA (F := F)) Y (Proc.devRef .tc main_v3) = colOf (F := F) (Y (Proc.devRef .tc main_arg1)) := by
  unfold opsA
  after_results_simp <;> rfl

theorem A_v4 : after (opsA (F := F)) Y (Proc.devRef .tc main_v4) = Host.dotGeneral dot_S100000x128_S128x64_S100000x64_1_0_0_1_n_n none (Y (Proc.devRef .tc main_arg0)) (Y (Proc.devRef .tc main_arg2)) := by
  unfold opsA
  after_results_simp <;> rfl

theorem A_v29 : after (opsA (F := F)) Y (Proc.devRef .tc main_v29) = normOf (F := F) (rowOf (F := F) (Y (Proc.devRef .tc main_arg1))) (colOf (F := F) (Y (Proc.devRef .tc main_arg1))) := by
  unfold opsA
  after_results_simp <;> rfl

theorem A_arg1 : after (opsA (F := F)) Y (Proc.devRef .tc main_arg1) = Y (Proc.devRef .tc main_arg1) := by
  unfold opsA
  after_results_simp <;> rfl

theorem A_arg3 : after (opsA (F := F)) Y (Proc.devRef .tc main_arg3) = Y (Proc.devRef .tc main_arg3) := by
  unfold opsA
  after_results_simp <;> rfl

theorem B_v42 : after (opsB (F := F)) Y (Proc.devRef .tc main_v42) = agg64 (F := F) (Y (Proc.devRef .tc main_v4)) (Y (Proc.devRef .tc main_v1)) (Y (Proc.devRef .tc main_v3)) (Y (Proc.devRef .tc main_v29)) := by
  unfold opsB
  after_results_simp <;> rfl

theorem B_arg1 : after (opsB (F := F)) Y (Proc.devRef .tc main_arg1) = Y (Proc.devRef .tc main_arg1) := by
  unfold opsB
  after_results_simp <;> rfl

theorem B_arg3 : after (opsB (F := F)) Y (Proc.devRef .tc main_arg3) = Y (Proc.devRef .tc main_arg3) := by
  unfold opsB
  after_results_simp <;> rfl

theorem C_v44 : after (opsC (F := F)) Y (Proc.devRef .tc main_v44) = rowOf (F := F) (Y (Proc.devRef .tc main_arg1)) := by
  unfold opsC
  after_results_simp <;> rfl

theorem C_v46 : after (opsC (F := F)) Y (Proc.devRef .tc main_v46) = colOf (F := F) (Y (Proc.devRef .tc main_arg1)) := by
  unfold opsC
  after_results_simp <;> rfl

theorem C_v47 : after (opsC (F := F)) Y (Proc.devRef .tc main_v47) = Host.dotGeneral dot_S100000x64_S64x16_S100000x16_1_0_0_1_n_n none (Y (Proc.devRef .tc main_v42)) (Y (Proc.devRef .tc main_arg3)) := by
  unfold opsC
  after_results_simp <;> rfl

theorem D_v72 : after (opsD (F := F)) Y (Proc.devRef .tc main_v72) = normOf (F := F) (Y (Proc.devRef .tc main_v44)) (Y (Proc.devRef .tc main_v46)) := by
  unfold opsD
  after_results_simp <;> rfl

theorem D_v44 : after (opsD (F := F)) Y (Proc.devRef .tc main_v44) = Y (Proc.devRef .tc main_v44) := by
  unfold opsD
  after_results_simp <;> rfl

theorem D_v46 : after (opsD (F := F)) Y (Proc.devRef .tc main_v46) = Y (Proc.devRef .tc main_v46) := by
  unfold opsD
  after_results_simp <;> rfl

theorem D_v47 : after (opsD (F := F)) Y (Proc.devRef .tc main_v47) = Y (Proc.devRef .tc main_v47) := by
  unfold opsD
  after_results_simp <;> rfl

theorem E_v85 : after (opsE (F := F)) Y (Proc.devRef .tc main_v85) = agg16 (F := F) (Y (Proc.devRef .tc main_v47)) (Y (Proc.devRef .tc main_v44)) (Y (Proc.devRef .tc main_v46)) (Y (Proc.devRef .tc main_v72)) := by
  unfold opsE
  after_results_simp <;> rfl

/-- The last stretch over ANY two reductions: the program spells it through typed references, each operation's value
    carried along an equation between a buffer's type and itself; with the reductions left abstract nothing else is
    there to look into, and the fold reads off as `lsGen`. -/
theorem F_gen (R1 R2 : FVec F S100000x16 .f32 → FVec F S_ .f32 → FVec F S100000 .f32) :
    after (opsFg (F := F) R1 R2) Y (Proc.devRef .tc main_v86) = lsGen (F := F) R1 R2 (Y (Proc.devRef .tc main_v85)) := by
  unfold opsFg
  after_results_simp <;> rfl

/-- The last stretch is that one at the reference's two reductions. -/
theorem opsF_eq : (opsF : List (HloOp τ sig (Elt F)))
    = opsFg (F := F) (fun x v => Host.reduce FloatOps.maximumf x v reducesTo_S100000x16_S100000_d1 h_S_)
        (fun x v => Host.reduceAdd x v reducesTo_S100000x16_S100000_d1 h_S_) := rfl

/-- … and `lsGen` at them is the reference's logarithm of the softmax. -/
theorem lsGen_eq (a : (⟨S100000x16, .f32⟩ : BufTy).Contents (Elt F)) :
    lsGen (F := F) (fun x v => Host.reduce FloatOps.maximumf x v reducesTo_S100000x16_S100000_d1 h_S_)
        (fun x v => Host.reduceAdd x v reducesTo_S100000x16_S100000_d1 h_S_) a = lsRef (F := F) a := rfl

theorem F_v86 : after (opsF (F := F)) Y (Proc.devRef .tc main_v86) = lsRef (F := F) (Y (Proc.devRef .tc main_v85)) := by
  rw [opsF_eq]
  exact (F_gen Y _ _).trans (lsGen_eq _)

end Stretches

/-- The whole line's result buffer, from any starting contents. -/
theorem result_eq (Y : Valuation τ sig (Elt F)) :
    after (ValueP.ops (F := F)) Y (Proc.devRef .tc main_v86)
      = refValue (F := F) (Y (Proc.devRef .tc main_arg0)) (Y (Proc.devRef .tc main_arg1)) (Y (Proc.devRef .tc main_arg2)) (Y (Proc.devRef .tc main_arg3)) := by
  rw [ops_split, after_append, after_append, after_append, after_append, after_append]
  rw [F_v86, E_v85, D_v47, D_v44, D_v46, D_v72, C_v47, C_v44, C_v46, B_v42, B_arg1, B_arg3, A_v4, A_v1, A_v3, A_v29, A_arg1, A_arg3]
  rfl

set_option maxRecDepth 8192 in
set_option maxHeartbeats 51600000 in
/-- Every weakly fair execution of the reference ends with the result buffer at `refValue` of the arguments' launch
    contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v86) = refValue (F := F) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v86).trans (result_eq (launchContents m c)),
      (h c main_arg0).trans (by after_results_simp <;> rfl),
      (h c main_arg1).trans (by after_results_simp <;> rfl),
      (h c main_arg2).trans (by after_results_simp <;> rfl),
      (h c main_arg3).trans (by after_results_simp <;> rfl)⟩)
    (run_seq ValueP.scopedRefs_eq ValueP.scopedSems_eq defs main (fun _ => ValueP.ops) ValueP.main_eq (fun _ => ValueP.ops_sub) m ρ)

end Cert.ReferenceIdeal.RefValue

end
-- ==== Proof.LibHostDotSum.lean ====
/-
  The host's matrix product  [n, K] x [K, w] -> [n, w]  (a dot_general contracting the left operand's axis 1 with the
  right operand's axis 0) at the ideal values, read at entry (p, q): the sum over k < K of left(p, k) * right(k, q), for any
  sizes and whichever record of dimension numbers spells the product (the six index facts of a plain product).
-/
import proofs.«143458_j35210141892662_1_alg».proof.Proof.LibMatmulSum

noncomputable section

namespace Cert.LibMatmulSum

open Idealize.ShloMosaic Idealize.ShloMosaic.ValueIdx

/-- The host's plain matrix product at entry (p, q). -/
theorem hostDot_at {n K w : ℕ} {d : DotDims ⟨2, ![n, K]⟩ ⟨2, ![K, w]⟩ ⟨2, ![n, w]⟩} (hd : Plain d) {φ₁ φ₂ : FTy}
    (prec : Option ContractPrecision) (l : FVec Ideal ⟨2, ![n, K]⟩ φ₁) (r : FVec Ideal ⟨2, ![K, w]⟩ φ₂) (p : Fin n) (q : Fin w) :
    Host.dotGeneral d prec l r (ix2 p q) = ∑ k : Fin K, l (ix2 p k) * r (ix2 k q) := by
  simp only [Host.dotGeneral]
  rw [Ideal.dotGeneral_apply]
  exact sum_eq hd l r p q

end Cert.LibMatmulSum

end
-- ==== Proof.LibBroadcastInDim.lean ====
/-
  A host `broadcast_in_dim` read at an explicit index, for the shapes a bias row and a kept row-reduction take:
  a vector laid out as a column or as a row, a column repeated along the columns, a row repeated along the rows, and a
  scalar repeated everywhere. Stated over any element type.
-/
import Idealize.ShloMosaic.Lib.Pipeline.Value
import Idealize.ShloMosaic.Lib.ValueIdx

namespace Idealize.ShloMosaic.ValueIdx

variable {α : Type}

/-- `[a]` laid out as the column `[a, 1]`: entry `(p, u)` is the vector's entry `p`. -/
theorem broadcastInDim_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) :=
  broadcastInDim_apply _ h v (ix2 p u) (ix1 p) (fun ax => match ax with
    | ⟨0, _⟩ => by
      show p.val = if a = 1 then 0 else p.val
      split
      · have := p.isLt; omega
      · rfl)

/-- `[b]` laid out as the row `[1, b]`: entry `(u, c)` is the vector's entry `c`. -/
theorem broadcastInDim_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) :=
  broadcastInDim_apply _ h v (ix2 u c) (ix1 c) (fun ax => match ax with
    | ⟨0, _⟩ => by
      show c.val = if b = 1 then 0 else c.val
      split
      · have := c.isLt; omega
      · rfl)

/-- The column `[a, 1]` repeated to `[a, b]`: entry `(p, c)` is the column's entry in row `p`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) :=
  broadcastInDim_apply _ h v (ix2 p c) (ix2 p (0 : Fin 1)) (fun ax => match ax with
    | ⟨0, _⟩ => by
      show p.val = if a = 1 then 0 else p.val
      split
      · have := p.isLt; omega
      · rfl
    | ⟨1, _⟩ => rfl)

/-- The row `[1, b]` repeated to `[a, b]`: entry `(p, c)` is the row's entry in column `c`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) :=
  broadcastInDim_apply _ h v (ix2 p c) (ix2 (0 : Fin 1) c) (fun ax => match ax with
    | ⟨0, _⟩ => rfl
    | ⟨1, _⟩ => by
      show c.val = if b = 1 then 0 else c.val
      split
      · have := c.isLt; omega
      · rfl)

/-- A scalar repeated to any shape: every entry is the scalar. -/
theorem broadcastInDim_scalar_apply {t : Shape} (v : (⟨0, ![]⟩ : Shape).Idx → α)
    (h : (⟨0, ![]⟩ : Shape).BroadcastsInDim t ![]) (i : t.Idx) :
    broadcastInDim t ![] h v i = v ix0 :=
  broadcastInDim_apply _ h v i ix0 (fun ax => ax.elim0)

end Idealize.ShloMosaic.ValueIdx
-- ==== Proof.Bridge.lean ====
/-
  The two programs compute one function.  The host's matrix product is the sum over the contracted index, so it is
  `mm`; the reference's spelling of the logarithm of the softmax (a reduce with maximum from minus infinity, one more
  maximum with minus infinity, the columns repeated along the rows, a reduce with addition from zero) reads, entry by
  entry, as `logSoftmax`; everything between is the same host arithmetic on both sides.
-/
import proofs.«143458_j35210141892662_1_alg».proof.Proof.RefValue
import proofs.«143458_j35210141892662_1_alg».proof.Proof.KernelValue
import proofs.«143458_j35210141892662_1_alg».proof.Proof.LibHostDotSum
import proofs.«143458_j35210141892662_1_alg».proof.Proof.LibPlainLists
import proofs.«143458_j35210141892662_1_alg».proof.Proof.LibBroadcastInDim
import Idealize.ShloMosaic.PureOps.Ideal.Laws

set_option maxRecDepth 16384

noncomputable section

namespace Cert.Bridge

open Cert.Spec Cert.LibMatmulSum
open Cert.ReferenceIdeal Cert.ReferenceIdeal.Gen Cert.ReferenceIdeal.Stages
open Idealize.ShloMosaic Idealize.ShloMosaic.ValueIdx

/-- The host's first product is the matrix product. -/
theorem hostDot1 (x : FVec Ideal S100000x128 .f32) (w : FVec Ideal S128x64 .f32) :
    Host.dotGeneral dot_S100000x128_S128x64_S100000x64_1_0_0_1_n_n none x w = mm (n := 100000) (K := 128) (w := 64) x w := by
  funext i
  obtain ⟨p, q, rfl⟩ : ∃ (p : Fin 100000) (q : Fin 64), i = ix2 p q := ⟨i 0, i 1, eq_ix2 i⟩
  exact hostDot_at (Plain.of_lists _ rfl rfl rfl rfl rfl rfl) none x w p q

/-- The host's second product is the matrix product. -/
theorem hostDot2 (x : FVec Ideal S100000x64 .f32) (w : FVec Ideal S64x16 .f32) :
    Host.dotGeneral dot_S100000x64_S64x16_S100000x16_1_0_0_1_n_n none x w = mm (n := 100000) (K := 64) (w := 16) x w := by
  funext i
  obtain ⟨p, q, rfl⟩ : ∃ (p : Fin 100000) (q : Fin 16), i = ix2 p q := ⟨i 0, i 1, eq_ix2 i⟩
  exact hostDot_at (Plain.of_lists _ rfl rfl rfl rfl rfl rfl) none x w p q

/-- The reduced index p with column k put back is (p, k). -/
theorem lift_ix2 (h : S100000x16.Reduces [1] S100000) (p : Fin 100000) (k : Fin 16) :
    h.lift (ix1 p) k = ix2 p k := by
  funext c; apply Fin.ext
  fin_cases c <;> rfl

/-- The host's logarithm and exponential act entry by entry. -/
theorem hostLog_apply {s : Shape} (v : FVec Ideal s .f32) (i : s.Idx) : Host.log v i = Ideal.log (v i) := rfl

theorem hostExp_apply {s : Shape} (v : FVec Ideal s .f32) (i : s.Idx) : Host.exp v i = Ideal.exp (v i) := rfl

/-- The host's reduce with maximum from minus infinity, at row p, is the fold of max over the row. -/
theorem hostRowMax (a : FVec Ideal S100000x16 .f32) (p : Fin 100000) :
    Host.reduce FloatOps.maximumf a (constant (F := Ideal) S_ .f32 0xFF800000#32) reducesTo_S100000x16_S100000_d1 h_S_ (ix1 p)
      = rowMax (n := 100000) a p := by
  have hR : S100000x16.Reduces [1] S100000 := by decide
  rw [Host.reduce_eq_fold_single FloatOps.maximumf a _ reducesTo_S100000x16_S100000_d1 hR h_S_ (ix1 p)]
  have hf : (a ∘ hR.lift (ix1 p)) = fun k : Fin 16 => a (ix2 p k) := funext fun k => congrArg a (lift_ix2 hR p k)
  rw [hf]
  rfl

/-- The reference's logarithm of the softmax is `logSoftmax`, entry by entry. -/
theorem lsRef_eq (a : FVec Ideal S100000x16 .f32) : lsRef (F := Ideal) a = logSoftmax (n := 100000) a := by
  have hR : S100000x16.Reduces [1] S100000 := by decide
  funext i
  obtain ⟨p, q, rfl⟩ : ∃ (p : Fin 100000) (q : Fin 16), i = ix2 p q := ⟨i 0, i 1, eq_ix2 i⟩
  have hmax : ∀ q' : Fin 16, lsMax (F := Ideal) a (ix2 p q') = rowMax (n := 100000) a p := fun q' => by
    unfold lsMax
    refine (broadcastInDim_a1_ab_apply _ _ p q').trans ?_
    refine (broadcastInDim_a_a1_apply _ _ p 0).trans ?_
    refine (maximumf_apply _ _ (ix1 p)).trans ?_
    rw [hostRowMax a p, broadcastInDim_scalar_apply]
    exact max_negInf_rowMax a p
  have hsub : ∀ q' : Fin 16, subf a (lsMax (F := Ideal) a) (ix2 p q') = a (ix2 p q') - rowMax (n := 100000) a p := fun q' => by
    show a (ix2 p q') - lsMax (F := Ideal) a (ix2 p q') = _
    rw [hmax q']
  have hsum : Host.reduceAdd (Host.exp (subf a (lsMax (F := Ideal) a))) (constant (F := Ideal) S_ .f32 0x00000000#32) reducesTo_S100000x16_S100000_d1 h_S_ (ix1 p) = rowSumExp (n := 100000) a p (rowMax (n := 100000) a p) := by
    show Ideal.hostReduceAdd reducesTo_S100000x16_S100000_d1 (Host.exp (subf a (lsMax (F := Ideal) a)))
        (constant (F := Ideal) S_ .f32 0x00000000#32 (Shape.Idx.first h_S_)) (ix1 p) = _
    refine (Ideal.hostReduceAdd_single reducesTo_S100000x16_S100000_d1 hR _ _ (ix1 p)).trans ?_
    show Ideal.ofBits .f32 0x00000000#32 + ∑ k : Fin 16, Host.exp (subf a (lsMax (F := Ideal) a)) (hR.lift (ix1 p) k) = _
    rw [Ideal.ofBits_zero_f32, zero_add]
    unfold rowSumExp
    refine Finset.sum_congr rfl fun k _ => ?_
    rw [lift_ix2 hR p k]
    refine (hostExp_apply _ _).trans ?_
    rw [hsub k]
  have hlog : broadcastInDim S100000x16 ![0, 1] bcast_S100000x1_S100000x16_0_1 (Host.log (broadcastInDim S100000x1 ![0] bcast_S100000_S100000x1_0
      (Host.reduceAdd (Host.exp (subf a (lsMax (F := Ideal) a))) (constant (F := Ideal) S_ .f32 0x00000000#32) reducesTo_S100000x16_S100000_d1 h_S_))) (ix2 p q) = Ideal.log (rowSumExp (n := 100000) a p (rowMax (n := 100000) a p)) := by
    refine (broadcastInDim_a1_ab_apply _ _ p q).trans ?_
    refine (hostLog_apply _ _).trans ?_
    rw [broadcastInDim_a_a1_apply _ _ p 0, hsum]
  show subf a (lsMax (F := Ideal) a) (ix2 p q)
      - broadcastInDim S100000x16 ![0, 1] bcast_S100000x1_S100000x16_0_1 (Host.log (broadcastInDim S100000x1 ![0] bcast_S100000_S100000x1_0
        (Host.reduceAdd (Host.exp (subf a (lsMax (F := Ideal) a))) (constant (F := Ideal) S_ .f32 0x00000000#32) reducesTo_S100000x16_S100000_d1 h_S_))) (ix2 p q) = _
  rw [hsub q, hlog, logSoftmax_apply]

/-- The kernel's function of the four arguments is the reference's. -/
theorem kValue_eq_refValue (x : (⟨S100000x128, .f32⟩ : BufTy).Contents (Elt Ideal)) (e : (⟨S2x1600000, .i32⟩ : BufTy).Contents (Elt Ideal))
    (w1 : (⟨S128x64, .f32⟩ : BufTy).Contents (Elt Ideal)) (w2 : (⟨S64x16, .f32⟩ : BufTy).Contents (Elt Ideal)) :
    Cert.KernelIdeal.KValue.kValue x e w1 w2 = Cert.ReferenceIdeal.RefValue.refValue (F := Ideal) x e w1 w2 := by
  unfold Cert.KernelIdeal.KValue.kValue Cert.ReferenceIdeal.RefValue.refValue
  rw [hostDot1, hostDot2, lsRef_eq]

end Cert.Bridge

end
-- ==== Proof.lean ====
/-
  The kernel is a two-layer graph convolution followed by the logarithm of the softmax along rows: with the edges'
  per-edge weights w(e) computed from the in-degrees, it forms  logSoftmax (A (A (x W1) W2))  where A aggregates rows
  along the edges (gather the source rows, scale by w, scatter-add onto the target rows).  The kernel runs the two
  matrix products and the softmax as launches tiled over ten blocks of 10000 rows; the reference runs them as host
  operations.  At the ideal values a tiled product into a zero accumulator and the host's product are the same sum
  over the contracted index, the change of float format on the way into the product is the identity, and the two
  spellings of the softmax read, entry by entry, as the same expression (the reference's extra maximum with minus
  infinity changes nothing); the host arithmetic between the launches is the same on both sides.  No law used needs
  the inputs finite.  The ideal pass rewrote nothing, so the idealization claim is trivial; the three frame claims
  are the generated frames of the two kernels and, for the reference, its run with the result dropped.
-/
import proofs.«143458_j35210141892662_1_alg».proof.Defs
import proofs.«143458_j35210141892662_1_alg».proof.Proof.Gen.Kernel
import proofs.«143458_j35210141892662_1_alg».proof.Proof.Gen.Kernel.Skeleton
import proofs.«143458_j35210141892662_1_alg».proof.Proof.Gen.Kernel.Launch
import proofs.«143458_j35210141892662_1_alg».proof.Proof.Gen.Kernel.Points
import proofs.«143458_j35210141892662_1_alg».proof.Proof.Gen.Kernel.Frame
import proofs.«143458_j35210141892662_1_alg».proof.Proof.Gen.KernelIdeal
import proofs.«143458_j35210141892662_1_alg».proof.Proof.Gen.KernelIdeal.Skeleton
import proofs.«143458_j35210141892662_1_alg».proof.Proof.Gen.KernelIdeal.Launch
import proofs.«143458_j35210141892662_1_alg».proof.Proof.Gen.KernelIdeal.Points
import proofs.«143458_j35210141892662_1_alg».proof.Proof.Gen.KernelIdeal.Frame
import proofs.«143458_j35210141892662_1_alg».proof.Proof.Gen.ReferenceIdeal
import proofs.«143458_j35210141892662_1_alg».proof.Proof.Gen.Pre_finite_inputs
import proofs.«143458_j35210141892662_1_alg».proof.Proof.KernelRun
import proofs.«143458_j35210141892662_1_alg».proof.Proof.KernelValue
import proofs.«143458_j35210141892662_1_alg».proof.Proof.RefValue
import proofs.«143458_j35210141892662_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.RefValue.run (F := Ideal) m ρ)

theorem preserves : Cert.preserves_Kernel_KernelIdeal := trivial

/-- Both runs end with the result at one function of the arguments: the kernel's at `kValue`, the reference's at
    `refValue` of arguments that agree, and the two functions are equal. -/
theorem algebraic : Cert.algebraic_KernelIdeal_ReferenceIdeal := by
  intro m ρ m' ρ' _ hagree
  refine ⟨fun c => Cert.KernelIdeal.KValue.kValue (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.KernelIdeal.KValue.value m ρ c), (h c).2⟩)
      (Cert.KernelIdeal.RunV.run_result (F := Ideal) m ρ)
  · refine (θ_run Cert.ReferenceIdeal.defs _ _).mono (fun r h c => ⟨(h c).1.trans ?_, (h c).2⟩)
      (Cert.ReferenceIdeal.RefValue.run (F := Ideal) m' ρ')
    rw [(hagree c).1, (hagree c).2.1, (hagree c).2.2.1, (hagree c).2.2.2]
    exact (Cert.Bridge.kValue_eq_refValue _ _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
